-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  main_v3
-- ==== Kernel.lean ====
abbrev S8388608x2 : Shape := ⟨2, ![8388608, 2]⟩
abbrev S65536x128x2 : Shape := ⟨3, ![65536, 128, 2]⟩
abbrev S65536x2x128 : Shape := ⟨3, ![65536, 2, 128]⟩
abbrev S65536x256 : Shape := ⟨2, ![65536, 256]⟩
abbrev S65536x128 : Shape := ⟨2, ![65536, 128]⟩
abbrev S2048x256 : Shape := ⟨2, ![2048, 256]⟩
abbrev S2048x128 : Shape := ⟨2, ![2048, 128]⟩
abbrev S65536x128x1 : Shape := ⟨3, ![65536, 128, 1]⟩
abbrev S65536x128x6 : Shape := ⟨3, ![65536, 128, 6]⟩
abbrev S8388608x6 : Shape := ⟨2, ![8388608, 6]⟩

abbrev nBuf : Space → Nat
  | .hbm => 18
  | .vmem => 14
  | .smem => 0
  | _ => 0

abbrev bufTy : (tb : Table) → Fin (tcTables nBuf tb) → BufTy
  | .hbm, ⟨0, _⟩ => ⟨S8388608x2, .f32⟩
  | .hbm, ⟨1, _⟩ => ⟨S65536x128x2, .f32⟩
  | .hbm, ⟨2, _⟩ => ⟨S65536x2x128, .f32⟩
  | .hbm, ⟨3, _⟩ => ⟨S65536x256, .f32⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S65536x128x1, .f32⟩
  | .hbm, ⟨11, _⟩ => ⟨S65536x128x1, .f32⟩
  | .hbm, ⟨12, _⟩ => ⟨S65536x128x1, .f32⟩
  | .hbm, ⟨13, _⟩ => ⟨S65536x128x1, .f32⟩
  | .hbm, ⟨14, _⟩ => ⟨S65536x128x1, .f32⟩
  | .hbm, ⟨15, _⟩ => ⟨S65536x128x1, .f32⟩
  | .hbm, ⟨16, _⟩ => ⟨S65536x128x6, .f32⟩
  | .hbm, ⟨17, _⟩ => ⟨S8388608x6, .f32⟩
  | .local _ .vmem, ⟨0, _⟩ => ⟨S2048x256, .f32⟩
  | .local _ .vmem, ⟨1, _⟩ => ⟨S2048x256, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v3_3 : Ref sig .tc := ⟨.hbm, 7, rfl⟩
abbrev main_v3_4 : Ref sig .tc := ⟨.hbm, 8, rfl⟩
abbrev main_v3_5 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8388608x2_S65536x128x2 : S8388608x2.ShapeCasts S65536x128x2
  transposes_S65536x128x2_S65536x2x128_0_2_1 : S65536x128x2.Transposes [0, 2, 1] S65536x2x128
  shapeCasts_S65536x2x128_S65536x256 : S65536x2x128.ShapeCasts S65536x256
  inb_S2048x256_S2048x128_0_0 : ∀ a, (![0, 0] : Fin 2 → Nat) a + S2048x128.size a ≤ S2048x256.size a
  h_S2048x128 : 0 < S2048x128.numel
  shapeCasts_S2048x128_S2048x128 : S2048x128.ShapeCasts S2048x128
  inb_S2048x256_S2048x128_0_128 : ∀ a, (![0, 128] : Fin 2 → Nat) a + S2048x128.size a ≤ S2048x256.size a
  inb_S2048x128_S2048x128_0_0 : ∀ a, (![0, 0] : Fin 2 → Nat) a + S2048x128.size a ≤ S2048x128.size a
  bcast_S65536x128_S65536x128x1_0_1 : S65536x128.BroadcastsInDim S65536x128x1 (![0, 1] : Fin 2 → Fin S65536x128x1.rank)
  concatenates_S65536x128x1_S65536x128x1_S65536x128x1_S65536x128x1_S65536x128x1_S65536x128x1_S65536x128x6_d2 : Shape.Concatenates [S65536x128x1, S65536x128x1, S65536x128x1, S65536x128x1, S65536x128x1, S65536x128x1] S65536x128x6 2
  shapeCasts_S65536x128x6_S8388608x6 : S65536x128x6.ShapeCasts S8388608x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)

variable [Facts₀]

abbrev win0_0 : Pipeline.Window sig grid0 :=
  Pipeline.Window.ofSpec (Memref.whole main_v2) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S2048x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_2) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_3) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_4) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_5) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩
abbrev S8388608x6 : Shape := ⟨2, ![8388608, 6]⟩

abbrev nBuf : Space → Nat
  | .hbm => 323
  | .vmem => 0
  | .smem => 0
  | _ => 0

abbrev hbmTy0_0 (i : Nat) : BufTy := match i % 128 with
  | 0 => ⟨S8388608x2, .f32⟩
  | 1 => ⟨S8388608x1, .f32⟩
  | 2 => ⟨S8388608, .f32⟩
  | 3 => ⟨S8388608x1, .f32⟩
  | 4 => ⟨S8388608, .f32⟩
  | 5 => ⟨S8388608, .f32⟩
  | 6 => ⟨S8388608, .f32⟩
  | 7 => ⟨S8388608, .f32⟩
  | 8 => ⟨S_, .f32⟩
  | 9 => ⟨S8388608, .f32⟩
  | 10 => ⟨S8388608, .f32⟩
  | 11 => ⟨S_, .f32⟩
  | 12 => ⟨S8388608, .f32⟩
  | 13 => ⟨S8388608, .f32⟩
  | 14 => ⟨S_, .f32⟩
  | 15 => ⟨S8388608, .f32⟩
  | 16 => ⟨S8388608, .i1⟩
  | 17 => ⟨S8388608, .f32⟩
  | 18 => ⟨S_, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S8388608, .f32⟩
  | 25 => ⟨S8388608, .f32⟩
  | 26 => ⟨S8388608, .f32⟩
  | 27 => ⟨S8388608, .f32⟩
  | 28 => ⟨S_, .f32⟩
  | 29 => ⟨S8388608, .f32⟩
  | 30 => ⟨S8388608, .f32⟩
  | 31 => ⟨S_, .f32⟩
  | 32 => ⟨S8388608, .f32⟩
  | 33 => ⟨S8388608, .f32⟩
  | 34 => ⟨S_, .f32⟩
  | 35 => ⟨S8388608, .f32⟩
  | 36 => ⟨S8388608, .i1⟩
  | 37 => ⟨S8388608, .f32⟩
  | 38 => ⟨S_, .f32⟩
  | 39 => ⟨S8388608, .f32⟩
  | 40 => ⟨S8388608, .f32⟩
  | 41 => ⟨S_, .f32⟩
  | 42 => ⟨S8388608, .f32⟩
  | 43 => ⟨S8388608, .f32⟩
  | 44 => ⟨S8388608, .f32⟩
  | 45 => ⟨S8388608, .f32⟩
  | 46 => ⟨S8388608, .f32⟩
  | 47 => ⟨S8388608, .f32⟩
  | 48 => ⟨S_, .f32⟩
  | 49 => ⟨S8388608, .f32⟩
  | 50 => ⟨S8388608, .f32⟩
  | 51 => ⟨S_, .f32⟩
  | 52 => ⟨S8388608, .f32⟩
  | 53 => ⟨S8388608, .f32⟩
  | 54 => ⟨S_, .f32⟩
  | 55 => ⟨S8388608, .f32⟩
  | 56 => ⟨S8388608, .i1⟩
  | 57 => ⟨S_, .f32⟩
  | 58 => ⟨S8388608, .f32⟩
  | 59 => ⟨S8388608, .f32⟩
  | 60 => ⟨S8388608, .f32⟩
  | 61 => ⟨S_, .f32⟩
  | 62 => ⟨S8388608, .f32⟩
  | 63 => ⟨S8388608, .f32⟩
  | 64 => ⟨S8388608, .f32⟩
  | 65 => ⟨S8388608, .f32⟩
  | 66 => ⟨S8388608, .f32⟩
  | 67 => ⟨S8388608, .f32⟩
  | 68 => ⟨S8388608, .f32⟩
  | 69 => ⟨S_, .f32⟩
  | 70 => ⟨S8388608, .f32⟩
  | 71 => ⟨S8388608, .f32⟩
  | 72 => ⟨S_, .f32⟩
  | 73 => ⟨S8388608, .f32⟩
  | 74 => ⟨S8388608, .f32⟩
  | 75 => ⟨S_, .f32⟩
  | 76 => ⟨S8388608, .f32⟩
  | 77 => ⟨S8388608, .i1⟩
  | 78 => ⟨S_, .f32⟩
  | 79 => ⟨S8388608, .f32⟩
  | 80 => ⟨S8388608, .f32⟩
  | 81 => ⟨S8388608, .f32⟩
  | 82 => ⟨S_, .f32⟩
  | 83 => ⟨S8388608, .f32⟩
  | 84 => ⟨S8388608, .f32⟩
  | 85 => ⟨S8388608, .f32⟩
  | 86 => ⟨S8388608, .f32⟩
  | 87 => ⟨S8388608, .f32⟩
  | 88 => ⟨S_, .f32⟩
  | 89 => ⟨S8388608, .f32⟩
  | 90 => ⟨S_, .f32⟩
  | 91 => ⟨S8388608, .f32⟩
  | 92 => ⟨S8388608, .i1⟩
  | 93 => ⟨S_, .f32⟩
  | 94 => ⟨S8388608, .f32⟩
  | 95 => ⟨S8388608, .i1⟩
  | 96 => ⟨S8388608, .i1⟩
  | 97 => ⟨S8388608, .i1⟩
  | 98 => ⟨S8388608, .f32⟩
  | 99 => ⟨S8388608, .f32⟩
  | 100 => ⟨S_, .f32⟩
  | 101 => ⟨S8388608, .f32⟩
  | 102 => ⟨S8388608, .i1⟩
  | 103 => ⟨S8388608, .i1⟩
  | 104 => ⟨S_, .f32⟩
  | 105 => ⟨S8388608, .f32⟩
  | 106 => ⟨S8388608, .i1⟩
  | 107 => ⟨S8388608, .i1⟩
  | 108 => ⟨S8388608, .f32⟩
  | 109 => ⟨S8388608, .f32⟩
  | 110 => ⟨S8388608, .f32⟩
  | 111 => ⟨S8388608, .f32⟩
  | 112 => ⟨S8388608, .i1⟩
  | 113 => ⟨S8388608, .i1⟩
  | 114 => ⟨S8388608, .i1⟩
  | 115 => ⟨S8388608, .i1⟩
  | 116 => ⟨S8388608, .i1⟩
  | 117 => ⟨S8388608, .f32⟩
  | 118 => ⟨S8388608, .f32⟩
  | 119 => ⟨S8388608, .f32⟩
  | 120 => ⟨S8388608, .f32⟩
  | 121 => ⟨S_, .f32⟩
  | 122 => ⟨S_, .f32⟩
  | 123 => ⟨S8388608, .f32⟩
  | 124 => ⟨S8388608, .f32⟩
  | 125 => ⟨S8388608, .f32⟩
  | 126 => ⟨S_, .f32⟩
  | 127 => ⟨S8388608, .f32⟩
  | _ => ⟨S8388608x2, .f32⟩

abbrev hbmTy0_1 (i : Nat) : BufTy := match i % 128 with
  | 0 => ⟨S8388608, .f32⟩
  | 1 => ⟨S8388608, .f32⟩
  | 2 => ⟨S8388608, .f32⟩
  | 3 => ⟨S_, .f32⟩
  | 4 => ⟨S8388608, .f32⟩
  | 5 => ⟨S8388608, .f32⟩
  | 6 => ⟨S8388608, .f32⟩
  | 7 => ⟨S_, .f32⟩
  | 8 => ⟨S8388608, .f32⟩
  | 9 => ⟨S8388608, .f32⟩
  | 10 => ⟨S8388608, .f32⟩
  | 11 => ⟨S8388608, .f32⟩
  | 12 => ⟨S8388608, .f32⟩
  | 13 => ⟨S_, .f32⟩
  | 14 => ⟨S8388608, .f32⟩
  | 15 => ⟨S8388608, .f32⟩
  | 16 => ⟨S8388608, .f32⟩
  | 17 => ⟨S_, .f32⟩
  | 18 => ⟨S8388608, .f32⟩
  | 19 => ⟨S8388608, .f32⟩
  | 20 => ⟨S8388608, .f32⟩
  | 21 => ⟨S8388608, .f32⟩
  | 22 => ⟨S8388608, .f32⟩
  | 23 => ⟨S_, .f32⟩
  | 24 => ⟨S8388608, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608, .f32⟩
  | 31 => ⟨S8388608, .f32⟩
  | 32 => ⟨S8388608, .f32⟩
  | 33 => ⟨S_, .f32⟩
  | 34 => ⟨S8388608, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S8388608, .f32⟩
  | 41 => ⟨S8388608, .f32⟩
  | 42 => ⟨S8388608, .f32⟩
  | 43 => ⟨S8388608, .f32⟩
  | 44 => ⟨S8388608, .f32⟩
  | 45 => ⟨S8388608, .f32⟩
  | 46 => ⟨S8388608, .f32⟩
  | 47 => ⟨S8388608, .f32⟩
  | 48 => ⟨S8388608, .f32⟩
  | 49 => ⟨S8388608, .f32⟩
  | 50 => ⟨S8388608, .f32⟩
  | 51 => ⟨S8388608, .f32⟩
  | 52 => ⟨S8388608, .f32⟩
  | 53 => ⟨S_, .f32⟩
  | 54 => ⟨S8388608, .f32⟩
  | 55 => ⟨S8388608, .f32⟩
  | 56 => ⟨S8388608, .f32⟩
  | 57 => ⟨S8388608, .f32⟩
  | 58 => ⟨S8388608, .i1⟩
  | 59 => ⟨S8388608, .i1⟩
  | 60 => ⟨S8388608, .i1⟩
  | 61 => ⟨S8388608, .i1⟩
  | 62 => ⟨S_, .f32⟩
  | 63 => ⟨S_, .f32⟩
  | 64 => ⟨S8388608, .f32⟩
  | 65 => ⟨S8388608, .f32⟩
  | 66 => ⟨S8388608, .f32⟩
  | 67 => ⟨S8388608, .f32⟩
  | 68 => ⟨S_, .f32⟩
  | 69 => ⟨S8388608, .f32⟩
  | 70 => ⟨S8388608, .f32⟩
  | 71 => ⟨S8388608, .f32⟩
  | 72 => ⟨S8388608, .f32⟩
  | 73 => ⟨S8388608, .f32⟩
  | 74 => ⟨S8388608, .f32⟩
  | 75 => ⟨S8388608, .f32⟩
  | 76 => ⟨S8388608, .f32⟩
  | 77 => ⟨S_, .f32⟩
  | 78 => ⟨S_, .f32⟩
  | 79 => ⟨S8388608, .f32⟩
  | 80 => ⟨S8388608, .f32⟩
  | 81 => ⟨S8388608, .f32⟩
  | 82 => ⟨S_, .f32⟩
  | 83 => ⟨S8388608, .f32⟩
  | 84 => ⟨S8388608, .f32⟩
  | 85 => ⟨S8388608, .f32⟩
  | 86 => ⟨S8388608, .f32⟩
  | 87 => ⟨S_, .f32⟩
  | 88 => ⟨S8388608, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S8388608, .f32⟩
  | 95 => ⟨S8388608, .f32⟩
  | 96 => ⟨S8388608, .f32⟩
  | 97 => ⟨S_, .f32⟩
  | 98 => ⟨S8388608, .f32⟩
  | 99 => ⟨S8388608, .f32⟩
  | 100 => ⟨S8388608, .f32⟩
  | 101 => ⟨S_, .f32⟩
  | 102 => ⟨S8388608, .f32⟩
  | 103 => ⟨S8388608, .f32⟩
  | 104 => ⟨S8388608, .f32⟩
  | 105 => ⟨S8388608, .f32⟩
  | 106 => ⟨S8388608, .f32⟩
  | 107 => ⟨S8388608, .f32⟩
  | 108 => ⟨S8388608, .f32⟩
  | 109 => ⟨S8388608, .i1⟩
  | 110 => ⟨S8388608, .i1⟩
  | 111 => ⟨S8388608, .f32⟩
  | 112 => ⟨S_, .f32⟩
  | 113 => ⟨S8388608, .f32⟩
  | 114 => ⟨S8388608, .f32⟩
  | 115 => ⟨S_, .f32⟩
  | 116 => ⟨S8388608, .f32⟩
  | 117 => ⟨S8388608, .f32⟩
  | 118 => ⟨S8388608, .f32⟩
  | 119 => ⟨S_, .f32⟩
  | 120 => ⟨S_, .f32⟩
  | 121 => ⟨S8388608, .f32⟩
  | 122 => ⟨S8388608, .f32⟩
  | 123 => ⟨S_, .f32⟩
  | 124 => ⟨S8388608, .f32⟩
  | 125 => ⟨S8388608, .f32⟩
  | 126 => ⟨S8388608, .f32⟩
  | 127 => ⟨S8388608, .f32⟩
  | _ => ⟨S8388608x2, .f32⟩

abbrev hbmTy0_2 (i : Nat) : BufTy := match i % 128 with
  | 0 => ⟨S_, .f32⟩
  | 1 => ⟨S8388608, .f32⟩
  | 2 => ⟨S8388608, .f32⟩
  | 3 => ⟨S8388608, .f32⟩
  | 4 => ⟨S8388608, .f32⟩
  | 5 => ⟨S8388608, .f32⟩
  | 6 => ⟨S8388608, .f32⟩
  | 7 => ⟨S8388608, .f32⟩
  | 8 => ⟨S_, .f32⟩
  | 9 => ⟨S8388608, .f32⟩
  | 10 => ⟨S8388608, .f32⟩
  | 11 => ⟨S_, .f32⟩
  | 12 => ⟨S8388608, .f32⟩
  | 13 => ⟨S8388608, .f32⟩
  | 14 => ⟨S_, .f32⟩
  | 15 => ⟨S8388608, .f32⟩
  | 16 => ⟨S8388608, .i1⟩
  | 17 => ⟨S8388608, .f32⟩
  | 18 => ⟨S_, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S8388608, .f32⟩
  | 25 => ⟨S8388608, .f32⟩
  | 26 => ⟨S8388608, .i1⟩
  | 27 => ⟨S8388608, .i1⟩
  | 28 => ⟨S_, .f32⟩
  | 29 => ⟨S_, .f32⟩
  | 30 => ⟨S8388608, .f32⟩
  | 31 => ⟨S8388608, .f32⟩
  | 32 => ⟨S_, .f32⟩
  | 33 => ⟨S_, .f32⟩
  | 34 => ⟨S8388608, .f32⟩
  | 35 => ⟨S8388608, .f32⟩
  | 36 => ⟨S_, .f32⟩
  | 37 => ⟨S8388608, .f32⟩
  | 38 => ⟨S8388608, .i1⟩
  | 39 => ⟨S8388608, .f32⟩
  | 40 => ⟨S8388608, .f32⟩
  | 41 => ⟨S8388608, .f32⟩
  | 42 => ⟨S8388608, .f32⟩
  | 43 => ⟨S_, .f32⟩
  | 44 => ⟨S_, .f32⟩
  | 45 => ⟨S8388608, .f32⟩
  | 46 => ⟨S8388608, .f32⟩
  | 47 => ⟨S8388608, .f32⟩
  | 48 => ⟨S8388608, .f32⟩
  | 49 => ⟨S8388608, .f32⟩
  | 50 => ⟨S8388608, .f32⟩
  | 51 => ⟨S_, .f32⟩
  | 52 => ⟨S_, .f32⟩
  | 53 => ⟨S8388608, .f32⟩
  | 54 => ⟨S8388608, .f32⟩
  | 55 => ⟨S_, .f32⟩
  | 56 => ⟨S_, .f32⟩
  | 57 => ⟨S8388608, .f32⟩
  | 58 => ⟨S8388608, .f32⟩
  | 59 => ⟨S8388608, .f32⟩
  | 60 => ⟨S8388608x1, .f32⟩
  | 61 => ⟨S8388608x1, .f32⟩
  | 62 => ⟨S8388608x1, .f32⟩
  | 63 => ⟨S8388608x1, .f32⟩
  | 64 => ⟨S8388608x1, .f32⟩
  | 65 => ⟨S8388608x1, .f32⟩
  | 66 => ⟨S8388608x6, .f32⟩
  | _ => ⟨S8388608x2, .f32⟩

abbrev hbmTy (i : Nat) : BufTy := match i / 128 with
  | 0 => hbmTy0_0 i
  | 1 => hbmTy0_1 i
  | 2 => hbmTy0_2 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_cst_10 : Ref sig .tc := ⟨.hbm, 51, rfl⟩
abbrev main_v39 : Ref sig .tc := ⟨.hbm, 52, rfl⟩
abbrev main_v40 : Ref sig .tc := ⟨.hbm, 53, rfl⟩
abbrev main_cst_11 : Ref sig .tc := ⟨.hbm, 54, rfl⟩
abbrev main_v41 : Ref sig .tc := ⟨.hbm, 55, rfl⟩
abbrev main_v42 : Ref sig .tc := ⟨.hbm, 56, rfl⟩
abbrev main_cst_12 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_14 : Ref sig .tc := ⟨.hbm, 69, rfl⟩
abbrev main_v53 : Ref sig .tc := ⟨.hbm, 70, rfl⟩
abbrev main_v54 : Ref sig .tc := ⟨.hbm, 71, rfl⟩
abbrev main_cst_15 : Ref sig .tc := ⟨.hbm, 72, rfl⟩
abbrev main_v55 : Ref sig .tc := ⟨.hbm, 73, rfl⟩
abbrev main_v56 : Ref sig .tc := ⟨.hbm, 74, rfl⟩
abbrev main_cst_16 : Ref sig .tc := ⟨.hbm, 75, rfl⟩
abbrev main_v57 : Ref sig .tc := ⟨.hbm, 76, rfl⟩
abbrev main_v58 : Ref sig .tc := ⟨.hbm, 77, rfl⟩
abbrev main_cst_17 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_18 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_cst_20 : Ref sig .tc := ⟨.hbm, 90, rfl⟩
abbrev main_v68 : Ref sig .tc := ⟨.hbm, 91, rfl⟩
abbrev main_v69 : Ref sig .tc := ⟨.hbm, 92, rfl⟩
abbrev main_cst_21 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_22 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_23 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_24 : Ref sig .tc := ⟨.hbm, 121, rfl⟩
abbrev main_call10_v0 : Ref sig .tc := ⟨.hbm, 122, rfl⟩
abbrev main_call10_v1 : Ref sig .tc := ⟨.hbm, 123, rfl⟩
abbrev main_v95 : Ref sig .tc := ⟨.hbm, 124, rfl⟩
abbrev main_v96 : Ref sig .tc := ⟨.hbm, 125, rfl⟩
abbrev main_cst_25 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_26 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_27 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_28 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_29 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_30 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_31 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_32 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_33 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_34 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_35 : Ref sig .tc := ⟨.hbm, 190, rfl⟩
abbrev main_call20_v0 : Ref sig .tc := ⟨.hbm, 191, rfl⟩
abbrev main_call20_v1 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_36 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_37 : Ref sig .tc := ⟨.hbm, 205, rfl⟩
abbrev main_call25_v0 : Ref sig .tc := ⟨.hbm, 206, rfl⟩
abbrev main_call25_v1 : Ref sig .tc := ⟨.hbm, 207, rfl⟩
abbrev main_v162 : Ref sig .tc := ⟨.hbm, 208, rfl⟩
abbrev main_v163 : Ref sig .tc := ⟨.hbm, 209, rfl⟩
abbrev main_cst_38 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_39 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_40 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_41 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_cst_42 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_43 : Ref sig .tc := ⟨.hbm, 240, rfl⟩
abbrev main_v189 : Ref sig .tc := ⟨.hbm, 241, rfl⟩
abbrev main_v190 : Ref sig .tc := ⟨.hbm, 242, rfl⟩
abbrev main_cst_44 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_45 : Ref sig .tc := ⟨.hbm, 247, rfl⟩
abbrev main_call30_v0 : Ref sig .tc := ⟨.hbm, 248, rfl⟩
abbrev main_call30_v1 : Ref sig .tc := ⟨.hbm, 249, rfl⟩
abbrev main_v194 : Ref sig .tc := ⟨.hbm, 250, rfl⟩
abbrev main_cst_46 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_47 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_cst_48 : Ref sig .tc := ⟨.hbm, 264, rfl⟩
abbrev main_v206 : Ref sig .tc := ⟨.hbm, 265, rfl⟩
abbrev main_v207 : Ref sig .tc := ⟨.hbm, 266, rfl⟩
abbrev main_cst_49 : Ref sig .tc := ⟨.hbm, 267, rfl⟩
abbrev main_v208 : Ref sig .tc := ⟨.hbm, 268, rfl⟩
abbrev main_v209 : Ref sig .tc := ⟨.hbm, 269, rfl⟩
abbrev main_cst_50 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_51 : Ref sig .tc := ⟨.hbm, 274, rfl⟩
abbrev main_v213 : Ref sig .tc := ⟨.hbm, 275, rfl⟩
abbrev main_v214 : Ref sig .tc := ⟨.hbm, 276, rfl⟩
abbrev main_cst_52 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_53 : Ref sig .tc := ⟨.hbm, 284, rfl⟩
abbrev main_call35_v0 : Ref sig .tc := ⟨.hbm, 285, rfl⟩
abbrev main_call35_v1 : Ref sig .tc := ⟨.hbm, 286, rfl⟩
abbrev main_v221 : Ref sig .tc := ⟨.hbm, 287, rfl⟩
abbrev main_cst_54 : Ref sig .tc := ⟨.hbm, 288, rfl⟩
abbrev main_call36_v0 : Ref sig .tc := ⟨.hbm, 289, rfl⟩
abbrev main_call36_v1 : Ref sig .tc := ⟨.hbm, 290, rfl⟩
abbrev main_v222 : Ref sig .tc := ⟨.hbm, 291, rfl⟩
abbrev main_cst_55 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_cst_56 : Ref sig .tc := ⟨.hbm, 299, rfl⟩
abbrev main_call41_v0 : Ref sig .tc := ⟨.hbm, 300, rfl⟩
abbrev main_call41_v1 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_cst_57 : Ref sig .tc := ⟨.hbm, 307, rfl⟩
abbrev main_call42_v0 : Ref sig .tc := ⟨.hbm, 308, rfl⟩
abbrev main_call42_v1 : Ref sig .tc := ⟨.hbm, 309, rfl⟩
abbrev main_v234 : Ref sig .tc := ⟨.hbm, 310, rfl⟩
abbrev main_cst_58 : Ref sig .tc := ⟨.hbm, 311, rfl⟩
abbrev main_call43_v0 : Ref sig .tc := ⟨.hbm, 312, rfl⟩
abbrev main_call43_v1 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x1_S8388608x1_S8388608x6_d1 : Shape.Concatenates [S8388608x1, S8388608x1, S8388608x1, S8388608x1, S8388608x1, S8388608x1] S8388608x6 1

variable [Facts₀]

class Facts : Prop extends Facts₀ where

variable [Facts]
-- ==== Proof.KStored.lean ====
/-
  The values the kernel body computes from the two halves of its input block.

  The body loads `v0` (the block's columns [0,128): the lower bounds) and `v2` (its columns [128,256): the upper
  bounds) and computes everything else from them, lane by lane. The named values below are the body's own
  intermediate vectors, each the payload of its operation applied to the earlier ones, so that a value used by
  several later operations is written once. The six stored vectors are `v210` (lower output bound), `v206` (upper
  output bound), `v200`, `v202` (the two slopes), `v219`, `v212` (the two shifts).
-/
import proofs.«103753_j14654428414206_2_alg».proof.Proof.Gen.Kernel.Skeleton

noncomputable section

namespace Cert.Kernel.Stored

open Idealize.ShloMosaic Cert.Kernel Cert.Kernel.Gen

variable {F : FTy → Type} [FloatOps F]

def v1 (v0 v2 : Vec F S2048x128 .f32) : FVec F S2048x128 .f32 := k0_pay1 v0
def v3 (v0 v2 : Vec F S2048x128 .f32) : FVec F S2048x128 .f32 := k0_pay2 v2
def v14 (v0 v2 : Vec F S2048x128 .f32) : FVec F S2048x128 .f32 := k0_pay5 v0
def v22 (v0 v2 : Vec F S2048x128 .f32) : FVec F S2048x128 .f32 := k0_pay6 v0
def v27 (v0 v2 : Vec F S2048x128 .f32) : IVec S2048x128 1 := k0_pay8 v2
def v33 (v0 v2 : Vec F S2048x128 .f32) : FVec F S2048x128 .f32 := k0_pay9 v2
def v35 (v0 v2 : Vec F S2048x128 .f32) : FVec F S2048x128 .f32 := k0_pay10 v2
def v40 (v0 v2 : Vec F S2048x128 .f32) : FVec F S2048x128 .f32 := k0_pay11 v2
def v41 (v0 v2 : Vec F S2048x128 .f32) : FVec F S2048x128 .f32 := k0_pay12 (v27 v0 v2) (v35 v0 v2) (v40 v0 v2)
def v42 (v0 v2 : Vec F S2048x128 .f32) : FVec F S2048x128 .f32 := k0_pay13 (v1 v0 v2) (v3 v0 v2)
def v43 (v0 v2 : Vec F S2048x128 .f32) : FVec F S2048x128 .f32 := k0_pay14 (F := F)
def v49 (v0 v2 : Vec F S2048x128 .f32) : IVec S2048x128 1 := k0_pay17 (v1 v0 v2) (v3 v0 v2)
def v51 (v0 v2 : Vec F S2048x128 .f32) : FVec F S2048x128 .f32 := k0_pay18 (v1 v0 v2) (v3 v0 v2) (v14 v0 v2) (v33 v0 v2)
def v54 (v0 v2 : Vec F S2048x128 .f32) : IVec S2048x128 1 := k0_pay19 (v1 v0 v2) (v3 v0 v2) (v14 v0 v2) (v33 v0 v2)
def v57 (v0 v2 : Vec F S2048x128 .f32) : IVec S2048x128 1 := k0_pay20 (v1 v0 v2) (v3 v0 v2) (v14 v0 v2) (v33 v0 v2)
def v60 (v0 v2 : Vec F S2048x128 .f32) : FVec F S2048x128 .f32 := k0_pay21 (v1 v0 v2) (v3 v0 v2) (v14 v0 v2) (v22 v0 v2) (v33 v0 v2)
def v63 (v0 v2 : Vec F S2048x128 .f32) : IVec S2048x128 1 := k0_pay22 (v1 v0 v2) (v3 v0 v2) (v14 v0 v2) (v22 v0 v2) (v33 v0 v2)
def v65 (v0 v2 : Vec F S2048x128 .f32) : IVec S2048x128 1 := k0_pay23 (v1 v0 v2) (v3 v0 v2) (v14 v0 v2) (v22 v0 v2) (v33 v0 v2)
def v66 (v0 v2 : Vec F S2048x128 .f32) : IVec S2048x128 1 := k0_pay24 (v1 v0 v2) (v3 v0 v2) (v14 v0 v2) (v22 v0 v2) (v33 v0 v2)
def v67 (v0 v2 : Vec F S2048x128 .f32) : FVec F S2048x128 .f32 := k0_pay25 (v1 v0 v2) (v3 v0 v2) (v14 v0 v2) (v22 v0 v2) (v33 v0 v2)
def v78 (v0 v2 : Vec F S2048x128 .f32) : FVec F S2048x128 .f32 := k0_pay26 (v1 v0 v2) (v3 v0 v2) (v14 v0 v2) (v22 v0 v2) (v33 v0 v2)
def v86 (v0 v2 : Vec F S2048x128 .f32) : FVec F S2048x128 .f32 := k0_pay27 (v1 v0 v2) (v3 v0 v2) (v14 v0 v2) (v22 v0 v2) (v33 v0 v2)
def v88 (v0 v2 : Vec F S2048x128 .f32) : FVec F S2048x128 .f32 := k0_pay28 (v14 v0 v2)
def v110 (v0 v2 : Vec F S2048x128 .f32) : FVec F S2048x128 .f32 := k0_pay29 (v1 v0 v2) (v3 v0 v2) (v33 v0 v2) (v43 v0 v2) (v54 v0 v2) (v65 v0 v2) (v78 v0 v2) (v88 v0 v2)
def v112 (v0 v2 : Vec F S2048x128 .f32) : FVec F S2048x128 .f32 := k0_pay30 (v1 v0 v2) (v3 v0 v2) (v14 v0 v2) (v33 v0 v2) (v43 v0 v2) (v54 v0 v2) (v65 v0 v2) (v66 v0 v2) (v78 v0 v2) (v86 v0 v2) (v88 v0 v2)
def v126 (v0 v2 : Vec F S2048x128 .f32) : IVec S2048x128 1 := k0_pay33 (v1 v0 v2) (v3 v0 v2) (v14 v0 v2) (v33 v0 v2) (v41 v0 v2) (v42 v0 v2) (v43 v0 v2) (v54 v0 v2) (v65 v0 v2) (v66 v0 v2) (v78 v0 v2) (v86 v0 v2) (v88 v0 v2)
def v128 (v0 v2 : Vec F S2048x128 .f32) : IVec S2048x128 1 := k0_pay34 (v1 v0 v2) (v3 v0 v2) (v14 v0 v2) (v33 v0 v2) (v41 v0 v2) (v42 v0 v2) (v43 v0 v2) (v54 v0 v2) (v65 v0 v2) (v66 v0 v2) (v78 v0 v2) (v86 v0 v2) (v88 v0 v2)
def v131 (v0 v2 : Vec F S2048x128 .f32) : FVec F S2048x128 .f32 := k0_pay35 (v1 v0 v2) (v3 v0 v2) (v14 v0 v2) (v33 v0 v2) (v41 v0 v2) (v42 v0 v2) (v43 v0 v2) (v54 v0 v2) (v60 v0 v2) (v65 v0 v2) (v66 v0 v2) (v78 v0 v2) (v86 v0 v2) (v88 v0 v2)
def v132 (v0 v2 : Vec F S2048x128 .f32) : FVec F S2048x128 .f32 := k0_pay36 (v22 v0 v2) (v63 v0 v2) (v67 v0 v2)
def v137 (v0 v2 : Vec F S2048x128 .f32) : FVec F S2048x128 .f32 := k0_pay37 (v14 v0 v2) (v42 v0 v2) (v43 v0 v2) (v63 v0 v2)
def v140 (v0 v2 : Vec F S2048x128 .f32) : FVec F S2048x128 .f32 := k0_pay38 (v1 v0 v2) (v3 v0 v2) (v14 v0 v2) (v22 v0 v2) (v33 v0 v2) (v41 v0 v2) (v43 v0 v2) (v63 v0 v2) (v66 v0 v2)
def v166 (v0 v2 : Vec F S2048x128 .f32) : FVec F S2048x128 .f32 := k0_pay39 (v1 v0 v2) (v3 v0 v2) (v14 v0 v2) (v22 v0 v2) (v33 v0 v2) (v63 v0 v2) (v78 v0 v2) (v110 v0 v2) (v112 v0 v2) (v140 v0 v2)
def v168 (v0 v2 : Vec F S2048x128 .f32) : IVec S2048x128 1 := k0_pay40 (v1 v0 v2) (v3 v0 v2) (v14 v0 v2) (v22 v0 v2) (v33 v0 v2) (v63 v0 v2) (v78 v0 v2) (v110 v0 v2) (v112 v0 v2) (v137 v0 v2) (v140 v0 v2)
def v183 (v0 v2 : Vec F S2048x128 .f32) : FVec F S2048x128 .f32 := k0_pay41 (v1 v0 v2) (v3 v0 v2) (v14 v0 v2) (v22 v0 v2) (v33 v0 v2) (v43 v0 v2) (v63 v0 v2) (v78 v0 v2) (v110 v0 v2) (v112 v0 v2) (v137 v0 v2) (v140 v0 v2)
def v184 (v0 v2 : Vec F S2048x128 .f32) : FVec F S2048x128 .f32 := k0_pay42 (v1 v0 v2) (v3 v0 v2) (v14 v0 v2) (v22 v0 v2) (v33 v0 v2) (v43 v0 v2) (v63 v0 v2) (v78 v0 v2) (v110 v0 v2) (v112 v0 v2) (v137 v0 v2) (v140 v0 v2)
def v187 (v0 v2 : Vec F S2048x128 .f32) : FVec F S2048x128 .f32 := k0_pay43 (v1 v0 v2) (v3 v0 v2) (v14 v0 v2) (v22 v0 v2) (v33 v0 v2) (v43 v0 v2) (v63 v0 v2) (v78 v0 v2) (v110 v0 v2) (v112 v0 v2) (v137 v0 v2) (v140 v0 v2)
def v212 (v0 v2 : Vec F S2048x128 .f32) : FVec F S2048x128 .f32 := k0_pay52 (v1 v0 v2) (v14 v0 v2) (v33 v0 v2) (v51 v0 v2) (v63 v0 v2) (v132 v0 v2) (v137 v0 v2) (v166 v0 v2) (v168 v0 v2) (v183 v0 v2) (v184 v0 v2) (v187 v0 v2)
def v219 (v0 v2 : Vec F S2048x128 .f32) : FVec F S2048x128 .f32 := k0_pay53 (v1 v0 v2) (v14 v0 v2) (v33 v0 v2) (v51 v0 v2) (v57 v0 v2) (v63 v0 v2) (v126 v0 v2) (v128 v0 v2) (v131 v0 v2) (v137 v0 v2) (v140 v0 v2) (v166 v0 v2) (v168 v0 v2) (v183 v0 v2) (v184 v0 v2) (v187 v0 v2)
def v210 (v0 v2 : Vec F S2048x128 .f32) : FVec F S2048x128 .f32 := k0_pay51 (v14 v0 v2) (v33 v0 v2) (v49 v0 v2) (v51 v0 v2) (v168 v0 v2) (v183 v0 v2) (v187 v0 v2)
def v206 (v0 v2 : Vec F S2048x128 .f32) : FVec F S2048x128 .f32 := k0_pay50 (v14 v0 v2) (v33 v0 v2) (v51 v0 v2) (v168 v0 v2) (v183 v0 v2) (v187 v0 v2)
def v200 (v0 v2 : Vec F S2048x128 .f32) : FVec F S2048x128 .f32 := k0_pay46 (v63 v0 v2) (v131 v0 v2) (v137 v0 v2) (v166 v0 v2)
def v202 (v0 v2 : Vec F S2048x128 .f32) : FVec F S2048x128 .f32 := k0_pay47 (v63 v0 v2) (v132 v0 v2) (v137 v0 v2) (v166 v0 v2)

end Cert.Kernel.Stored

end
-- ==== Proof.KFrame.lean ====
import proofs.«103753_j14654428414206_2_alg».proof.Proof.Gen.Kernel.Launch
import proofs.«103753_j14654428414206_2_alg».proof.Proof.Gen.Kernel.Skeleton
import proofs.«103753_j14654428414206_2_alg».proof.Proof.Gen.Kernel.Points
import proofs.«103753_j14654428414206_2_alg».proof.Proof.KStored
import Idealize.ShloMosaic.Lib.Pipeline.FrameBody
import Idealize.ShloMosaic.Lib.Pipeline.FrameSuffix
import Idealize.ShloMosaic.Lib.Ring
import Idealize.ShloMosaic.Lib.Tactic

/-!
# The frame run of the kernel program

The program is three host relayouts of the argument, one pipelined region over a grid of 32 points, and eight host
operations that stack the region's six result planes. Each point reads a 2048×256 block of the relaid argument (columns
0..127 the lower bounds, columns 128..255 the upper bounds of 128 neurons per row) and writes six 2048×128 blocks, every
one of them by a single store that fills its staging buffer whole. This module states what each of those stores writes
as a function of the block read (out0_1 … out0_6), proves that the body at any point takes the staging buffers from the
block (and anything in the output buffers) to the block and those six functions of it, and concludes the run of the
whole program: it terminates, faults nowhere, leaves every array of the region at what the proof data compute and the
argument array untouched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core c when the region begins: the memory as launched, after the three relayouts of the
    argument that precede the region. -/
abbrev V0 (c : Dev nD) : Valuation τ sig (Elt F) := StableHlo.after (List.flatten [hostOps0]) (fun b => m (c, b))
/-- The same contents read at a reference of the core. -/
abbrev V (c : Dev nD) (b : Ref sig .tc) : Buf (Elt F) ((c : Thread nD τ).loc b) := V0 m c (Proc.devRef .tc b)

/-- The relayouts before the region allocate no buffer. -/
theorem hostOps0_fresh : (hostOps0 : List (HloOp τ sig (Elt F))).Forall fun op => op.fresh = ∅ := by
  simp only [List.Forall]; repeat' constructor
/-- Neither do the eight stacking operations after it. -/
theorem hostOps1_fresh : (hostOps1 : List (HloOp τ sig (Elt F))).Forall fun op => op.fresh = ∅ := by
  simp only [List.Forall]; repeat' constructor

/-- The program is: the relayouts, then the region, then the stacking operations; so running it from the launch
    memory is running the region from the contents V and continuing with the stacking operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a stacking operation names is an unscoped buffer of the core, hence either an array of the region or
    a buffer the region passes by (nothing is prefetched). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The stacking operations allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- A stacking operation writes its own result buffer only (one of the six broadcast planes, the concatenation, the
    final reshape), and none of those is an array of the region (the relaid argument and the six result planes). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.unary_writes, StableHlo.reshape_writes, StableHlo.nary_writes, Finset.mem_singleton] <;> exact StableHlo.devRef_ne_of_ne (by decide)

/-- The relayouts write the three relaid copies, never the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- Nor does a stacking operation write the argument array, and it is no array of the region: it ends as launched,
    whatever the proof data. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The blocks of the windows -/

/-- The block of window w at grid point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds the block of the point at every point, for any proof data whose input
    array is the region-entry contents and whose body leaves the input block where it is: the window is fetched
    whole at every point and is never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the frame claim -/

/-- For any proof data, a run of the program to the frame post read at the argument array — an unscoped buffer that
    is no array of the region, so the post says it ends as the stacking operations leave it, which is as launched —
    is the frame claim. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body reads and writes -/

/-- The two halves of the input block the body loads: columns 0..127 (the lower bounds) and columns 128..255 (the
    upper bounds), each over all 2048 rows. -/
abbrev rL : Rect S2048x256 := Rect.unit (s := S2048x256) ![0, 0] S2048x128.size Gen.inb_S2048x256_S2048x128_0_0
abbrev rU : Rect S2048x256 := Rect.unit (s := S2048x256) ![0, 128] S2048x128.size Gen.inb_S2048x256_S2048x128_0_128
/-- The rectangle of every store: an output block whole. -/
abbrev rOut : Rect S2048x128 := Rect.unit (s := S2048x128) ![0, 0] S2048x128.size Gen.inb_S2048x128_S2048x128_0_0

/-! ## What the body leaves in each output buffer -/

section Out
variable (x0 : Vec F S2048x256 .f32)

/-- Output buffer W after the body, as a function of the input block x0: the contents its one store leaves. The
    stored value is the body's named vector (210, 206, 200, 202, 219, 212 for buffers 1 to 6) computed from the two
    halves of x0; the store's rectangle is the whole buffer, so the buffer reads the stored value at every index. -/
def out0_1 : Vec F S2048x128 .f32 := View.canon [⟨rOut, Stored.v210 (View.ld x0 rL) (View.ld x0 rU)⟩]
def out0_2 : Vec F S2048x128 .f32 := View.canon [⟨rOut, Stored.v206 (View.ld x0 rL) (View.ld x0 rU)⟩]
def out0_3 : Vec F S2048x128 .f32 := View.canon [⟨rOut, Stored.v200 (View.ld x0 rL) (View.ld x0 rU)⟩]
def out0_4 : Vec F S2048x128 .f32 := View.canon [⟨rOut, Stored.v202 (View.ld x0 rL) (View.ld x0 rU)⟩]
def out0_5 : Vec F S2048x128 .f32 := View.canon [⟨rOut, Stored.v219 (View.ld x0 rL) (View.ld x0 rU)⟩]
def out0_6 : Vec F S2048x128 .f32 := View.canon [⟨rOut, Stored.v212 (View.ld x0 rL) (View.ld x0 rU)⟩]

end Out

/-- One store through the whole-buffer rectangle covers the buffer (the rectangle tiles it: checked by evaluation). -/
theorem cover0 (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 4000000 in
/-- The body on whole staging buffers, the input's reading x0 and the six outputs' holding anything, runs to its
    continuation with the input's unchanged and output W's reading out0_W of x0: it loads the two halves of the
    input, loads each output buffer (a value it never uses) and then stores it whole, once. -/
theorem sound_kernel (c : Dev nD) (E : Set ℕ) (i : grid0.Coords)
    (arg1 : Memref sig .tc .vmem S2048x256 .f32) (harg1 : arg1.IsWhole)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (arg7 : Memref sig .tc .vmem S2048x128 .f32) (harg7 : arg7.IsWhole)
    (x0 : Vec F S2048x256 .f32) (K : PUnit → sProp 𝕄) :
    iprop(owns (c : Thread nD τ) arg1 fullShare x0
        ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0
            ∗ owns (c : Thread nD τ) arg2 fullShare (out0_1 x0) ∗ owns (c : Thread nD τ) arg3 fullShare (out0_2 x0)
            ∗ owns (c : Thread nD τ) arg4 fullShare (out0_3 x0) ∗ owns (c : Thread nD τ) arg5 fullShare (out0_4 x0)
            ∗ owns (c : Thread nD τ) arg6 fullShare (out0_5 x0) ∗ owns (c : Thread nD τ) arg7 fullShare (out0_6 x0)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data of the pipeline -/

/-- The proof data of the one pipeline on core c: its arrays as the region finds them; after the body at point t the
    input buffer at the point's block and output buffer W at out0_W of that block; the invariant that of a body with
    nothing of its own (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
    | ⟨3, _⟩ => out0_3 (iblk m c 0 t)
    | ⟨4, _⟩ => out0_4 (iblk m c 0 t)
    | ⟨5, _⟩ => out0_5 (iblk m c 0 t)
    | ⟨6, _⟩ => out0_6 (iblk m c 0 t)
  Φ _ := Pipeline.ΦA spec0 c
  q _ := fullShare
  owed _ := 0

/-- The proof data's arrays are the region-entry contents (a projection of the definition; the contents themselves,
    a fold over the relayouts, are never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 0 t) := by dsimp only [dats]
theorem after0_5 (c : Dev nD) (t : Fin cfg0.N) : (dats m 0 c).after 5 t = out0_5 (iblk m c 0 t) := by dsimp only [dats]
theorem after0_6 (c : Dev nD) (t : Fin cfg0.N) : (dats m 0 c).after 6 t = out0_6 (iblk m c 0 t) := by dsimp only [dats]

/-- The input's staging buffer holds the point's block when the body is called, at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point t: the invariant, what the core owes, and each window's current staging
    buffer whole at what the proof data say it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input's buffer holds the point's block, so the body's triple applies at that block;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which unfolds
-- plain definitions in the type of a metavariable
set_option backward.isDefEq.respectTransparency.types false in
/-- At the compiled mesh, for any values, from any memory with zero counters: every weakly fair execution of the
    program on the cores terminates, and in every final state every array of the region is what the library computes
    from the proof data and every other unscoped buffer is as the stacking operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame claim of the program, at any reading of the floats: it runs to the end, faults nowhere, and the
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KIStored.lean ====
/-
  The values the kernel body computes from the two halves of its input block.

  The body loads `v0` (the block's columns [0,128): the lower bounds) and `v2` (its columns [128,256): the upper
  bounds) and computes everything else from them, lane by lane. The named values below are the body's own
  intermediate vectors, each the payload of its operation applied to the earlier ones, so that a value used by
  several later operations is written once. The six stored vectors are `v210` (lower output bound), `v206` (upper
  output bound), `v200`, `v202` (the two slopes), `v219`, `v212` (the two shifts).
-/
import proofs.«103753_j14654428414206_2_alg».proof.Proof.Gen.KernelIdeal.Skeleton

noncomputable section

namespace Cert.KernelIdeal.Stored

open Idealize.ShloMosaic Cert.KernelIdeal Cert.KernelIdeal.Gen

variable {F : FTy → Type} [FloatOps F]

def v1 (v0 v2 : Vec F S2048x128 .f32) : FVec F S2048x128 .f32 := k0_pay1 v0
def v3 (v0 v2 : Vec F S2048x128 .f32) : FVec F S2048x128 .f32 := k0_pay2 v2
def v14 (v0 v2 : Vec F S2048x128 .f32) : FVec F S2048x128 .f32 := k0_pay5 v0
def v22 (v0 v2 : Vec F S2048x128 .f32) : FVec F S2048x128 .f32 := k0_pay6 v0
def v27 (v0 v2 : Vec F S2048x128 .f32) : IVec S2048x128 1 := k0_pay8 v2
def v33 (v0 v2 : Vec F S2048x128 .f32) : FVec F S2048x128 .f32 := k0_pay9 v2
def v35 (v0 v2 : Vec F S2048x128 .f32) : FVec F S2048x128 .f32 := k0_pay10 v2
def v40 (v0 v2 : Vec F S2048x128 .f32) : FVec F S2048x128 .f32 := k0_pay11 v2
def v41 (v0 v2 : Vec F S2048x128 .f32) : FVec F S2048x128 .f32 := k0_pay12 (v27 v0 v2) (v35 v0 v2) (v40 v0 v2)
def v42 (v0 v2 : Vec F S2048x128 .f32) : FVec F S2048x128 .f32 := k0_pay13 (v1 v0 v2) (v3 v0 v2)
def v43 (v0 v2 : Vec F S2048x128 .f32) : FVec F S2048x128 .f32 := k0_pay14 (F := F)
def v49 (v0 v2 : Vec F S2048x128 .f32) : IVec S2048x128 1 := k0_pay17 (v1 v0 v2) (v3 v0 v2)
def v51 (v0 v2 : Vec F S2048x128 .f32) : FVec F S2048x128 .f32 := k0_pay18 (v1 v0 v2) (v3 v0 v2) (v14 v0 v2) (v33 v0 v2)
def v54 (v0 v2 : Vec F S2048x128 .f32) : IVec S2048x128 1 := k0_pay19 (v1 v0 v2) (v3 v0 v2) (v14 v0 v2) (v33 v0 v2)
def v57 (v0 v2 : Vec F S2048x128 .f32) : IVec S2048x128 1 := k0_pay20 (v1 v0 v2) (v3 v0 v2) (v14 v0 v2) (v33 v0 v2)
def v60 (v0 v2 : Vec F S2048x128 .f32) : FVec F S2048x128 .f32 := k0_pay21 (v1 v0 v2) (v3 v0 v2) (v14 v0 v2) (v22 v0 v2) (v33 v0 v2)
def v63 (v0 v2 : Vec F S2048x128 .f32) : IVec S2048x128 1 := k0_pay22 (v1 v0 v2) (v3 v0 v2) (v14 v0 v2) (v22 v0 v2) (v33 v0 v2)
def v65 (v0 v2 : Vec F S2048x128 .f32) : IVec S2048x128 1 := k0_pay23 (v1 v0 v2) (v3 v0 v2) (v14 v0 v2) (v22 v0 v2) (v33 v0 v2)
def v66 (v0 v2 : Vec F S2048x128 .f32) : IVec S2048x128 1 := k0_pay24 (v1 v0 v2) (v3 v0 v2) (v14 v0 v2) (v22 v0 v2) (v33 v0 v2)
def v67 (v0 v2 : Vec F S2048x128 .f32) : FVec F S2048x128 .f32 := k0_pay25 (v1 v0 v2) (v3 v0 v2) (v14 v0 v2) (v22 v0 v2) (v33 v0 v2)
def v78 (v0 v2 : Vec F S2048x128 .f32) : FVec F S2048x128 .f32 := k0_pay26 (v1 v0 v2) (v3 v0 v2) (v14 v0 v2) (v22 v0 v2) (v33 v0 v2)
def v86 (v0 v2 : Vec F S2048x128 .f32) : FVec F S2048x128 .f32 := k0_pay27 (v1 v0 v2) (v3 v0 v2) (v14 v0 v2) (v22 v0 v2) (v33 v0 v2)
def v88 (v0 v2 : Vec F S2048x128 .f32) : FVec F S2048x128 .f32 := k0_pay28 (v14 v0 v2)
def v110 (v0 v2 : Vec F S2048x128 .f32) : FVec F S2048x128 .f32 := k0_pay29 (v1 v0 v2) (v3 v0 v2) (v33 v0 v2) (v43 v0 v2) (v54 v0 v2) (v65 v0 v2) (v78 v0 v2) (v88 v0 v2)
def v112 (v0 v2 : Vec F S2048x128 .f32) : FVec F S2048x128 .f32 := k0_pay30 (v1 v0 v2) (v3 v0 v2) (v14 v0 v2) (v33 v0 v2) (v43 v0 v2) (v54 v0 v2) (v65 v0 v2) (v66 v0 v2) (v78 v0 v2) (v86 v0 v2) (v88 v0 v2)
def v126 (v0 v2 : Vec F S2048x128 .f32) : IVec S2048x128 1 := k0_pay33 (v1 v0 v2) (v3 v0 v2) (v14 v0 v2) (v33 v0 v2) (v41 v0 v2) (v42 v0 v2) (v43 v0 v2) (v54 v0 v2) (v65 v0 v2) (v66 v0 v2) (v78 v0 v2) (v86 v0 v2) (v88 v0 v2)
def v128 (v0 v2 : Vec F S2048x128 .f32) : IVec S2048x128 1 := k0_pay34 (v1 v0 v2) (v3 v0 v2) (v14 v0 v2) (v33 v0 v2) (v41 v0 v2) (v42 v0 v2) (v43 v0 v2) (v54 v0 v2) (v65 v0 v2) (v66 v0 v2) (v78 v0 v2) (v86 v0 v2) (v88 v0 v2)
def v131 (v0 v2 : Vec F S2048x128 .f32) : FVec F S2048x128 .f32 := k0_pay35 (v1 v0 v2) (v3 v0 v2) (v14 v0 v2) (v33 v0 v2) (v41 v0 v2) (v42 v0 v2) (v43 v0 v2) (v54 v0 v2) (v60 v0 v2) (v65 v0 v2) (v66 v0 v2) (v78 v0 v2) (v86 v0 v2) (v88 v0 v2)
def v132 (v0 v2 : Vec F S2048x128 .f32) : FVec F S2048x128 .f32 := k0_pay36 (v22 v0 v2) (v63 v0 v2) (v67 v0 v2)
def v137 (v0 v2 : Vec F S2048x128 .f32) : FVec F S2048x128 .f32 := k0_pay37 (v14 v0 v2) (v42 v0 v2) (v43 v0 v2) (v63 v0 v2)
def v140 (v0 v2 : Vec F S2048x128 .f32) : FVec F S2048x128 .f32 := k0_pay38 (v1 v0 v2) (v3 v0 v2) (v14 v0 v2) (v22 v0 v2) (v33 v0 v2) (v41 v0 v2) (v43 v0 v2) (v63 v0 v2) (v66 v0 v2)
def v166 (v0 v2 : Vec F S2048x128 .f32) : FVec F S2048x128 .f32 := k0_pay39 (v1 v0 v2) (v3 v0 v2) (v14 v0 v2) (v22 v0 v2) (v33 v0 v2) (v63 v0 v2) (v78 v0 v2) (v110 v0 v2) (v112 v0 v2) (v140 v0 v2)
def v168 (v0 v2 : Vec F S2048x128 .f32) : IVec S2048x128 1 := k0_pay40 (v1 v0 v2) (v3 v0 v2) (v14 v0 v2) (v22 v0 v2) (v33 v0 v2) (v63 v0 v2) (v78 v0 v2) (v110 v0 v2) (v112 v0 v2) (v137 v0 v2) (v140 v0 v2)
def v183 (v0 v2 : Vec F S2048x128 .f32) : FVec F S2048x128 .f32 := k0_pay41 (v1 v0 v2) (v3 v0 v2) (v14 v0 v2) (v22 v0 v2) (v33 v0 v2) (v43 v0 v2) (v63 v0 v2) (v78 v0 v2) (v110 v0 v2) (v112 v0 v2) (v137 v0 v2) (v140 v0 v2)
def v184 (v0 v2 : Vec F S2048x128 .f32) : FVec F S2048x128 .f32 := k0_pay42 (v1 v0 v2) (v3 v0 v2) (v14 v0 v2) (v22 v0 v2) (v33 v0 v2) (v43 v0 v2) (v63 v0 v2) (v78 v0 v2) (v110 v0 v2) (v112 v0 v2) (v137 v0 v2) (v140 v0 v2)
def v187 (v0 v2 : Vec F S2048x128 .f32) : FVec F S2048x128 .f32 := k0_pay43 (v1 v0 v2) (v3 v0 v2) (v14 v0 v2) (v22 v0 v2) (v33 v0 v2) (v43 v0 v2) (v63 v0 v2) (v78 v0 v2) (v110 v0 v2) (v112 v0 v2) (v137 v0 v2) (v140 v0 v2)
def v212 (v0 v2 : Vec F S2048x128 .f32) : FVec F S2048x128 .f32 := k0_pay52 (v1 v0 v2) (v14 v0 v2) (v33 v0 v2) (v51 v0 v2) (v63 v0 v2) (v132 v0 v2) (v137 v0 v2) (v166 v0 v2) (v168 v0 v2) (v183 v0 v2) (v184 v0 v2) (v187 v0 v2)
def v219 (v0 v2 : Vec F S2048x128 .f32) : FVec F S2048x128 .f32 := k0_pay53 (v1 v0 v2) (v14 v0 v2) (v33 v0 v2) (v51 v0 v2) (v57 v0 v2) (v63 v0 v2) (v126 v0 v2) (v128 v0 v2) (v131 v0 v2) (v137 v0 v2) (v140 v0 v2) (v166 v0 v2) (v168 v0 v2) (v183 v0 v2) (v184 v0 v2) (v187 v0 v2)
def v210 (v0 v2 : Vec F S2048x128 .f32) : FVec F S2048x128 .f32 := k0_pay51 (v14 v0 v2) (v33 v0 v2) (v49 v0 v2) (v51 v0 v2) (v168 v0 v2) (v183 v0 v2) (v187 v0 v2)
def v206 (v0 v2 : Vec F S2048x128 .f32) : FVec F S2048x128 .f32 := k0_pay50 (v14 v0 v2) (v33 v0 v2) (v51 v0 v2) (v168 v0 v2) (v183 v0 v2) (v187 v0 v2)
def v200 (v0 v2 : Vec F S2048x128 .f32) : FVec F S2048x128 .f32 := k0_pay46 (v63 v0 v2) (v131 v0 v2) (v137 v0 v2) (v166 v0 v2)
def v202 (v0 v2 : Vec F S2048x128 .f32) : FVec F S2048x128 .f32 := k0_pay47 (v63 v0 v2) (v132 v0 v2) (v137 v0 v2) (v166 v0 v2)

end Cert.KernelIdeal.Stored

end
-- ==== Proof.KIFrame.lean ====
import proofs.«103753_j14654428414206_2_alg».proof.Proof.Gen.KernelIdeal.Launch
import proofs.«103753_j14654428414206_2_alg».proof.Proof.Gen.KernelIdeal.Skeleton
import proofs.«103753_j14654428414206_2_alg».proof.Proof.Gen.KernelIdeal.Points
import proofs.«103753_j14654428414206_2_alg».proof.Proof.KIStored
import Idealize.ShloMosaic.Lib.Pipeline.FrameBody
import Idealize.ShloMosaic.Lib.Pipeline.FrameSuffix
import Idealize.ShloMosaic.Lib.Ring
import Idealize.ShloMosaic.Lib.Tactic

/-!
# The frame run of the kernel program

The program is three host relayouts of the argument, one pipelined region over a grid of 32 points, and eight host
operations that stack the region's six result planes. Each point reads a 2048×256 block of the relaid argument (columns
0..127 the lower bounds, columns 128..255 the upper bounds of 128 neurons per row) and writes six 2048×128 blocks, every
one of them by a single store that fills its staging buffer whole. This module states what each of those stores writes
as a function of the block read (out0_1 … out0_6), proves that the body at any point takes the staging buffers from the
block (and anything in the output buffers) to the block and those six functions of it, and concludes the run of the
whole program: it terminates, faults nowhere, leaves every array of the region at what the proof data compute and the
argument array untouched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core c when the region begins: the memory as launched, after the three relayouts of the
    argument that precede the region. -/
abbrev V0 (c : Dev nD) : Valuation τ sig (Elt F) := StableHlo.after (List.flatten [hostOps0]) (fun b => m (c, b))
/-- The same contents read at a reference of the core. -/
abbrev V (c : Dev nD) (b : Ref sig .tc) : Buf (Elt F) ((c : Thread nD τ).loc b) := V0 m c (Proc.devRef .tc b)

/-- The relayouts before the region allocate no buffer. -/
theorem hostOps0_fresh : (hostOps0 : List (HloOp τ sig (Elt F))).Forall fun op => op.fresh = ∅ := by
  simp only [List.Forall]; repeat' constructor
/-- Neither do the eight stacking operations after it. -/
theorem hostOps1_fresh : (hostOps1 : List (HloOp τ sig (Elt F))).Forall fun op => op.fresh = ∅ := by
  simp only [List.Forall]; repeat' constructor

/-- The program is: the relayouts, then the region, then the stacking operations; so running it from the launch
    memory is running the region from the contents V and continuing with the stacking operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a stacking operation names is an unscoped buffer of the core, hence either an array of the region or
    a buffer the region passes by (nothing is prefetched). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The stacking operations allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- A stacking operation writes its own result buffer only (one of the six broadcast planes, the concatenation, the
    final reshape), and none of those is an array of the region (the relaid argument and the six result planes). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.unary_writes, StableHlo.reshape_writes, StableHlo.nary_writes, Finset.mem_singleton] <;> exact StableHlo.devRef_ne_of_ne (by decide)

/-- The relayouts write the three relaid copies, never the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- Nor does a stacking operation write the argument array, and it is no array of the region: it ends as launched,
    whatever the proof data. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The blocks of the windows -/

/-- The block of window w at grid point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds the block of the point at every point, for any proof data whose input
    array is the region-entry contents and whose body leaves the input block where it is: the window is fetched
    whole at every point and is never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the frame claim -/

/-- For any proof data, a run of the program to the frame post read at the argument array — an unscoped buffer that
    is no array of the region, so the post says it ends as the stacking operations leave it, which is as launched —
    is the frame claim. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body reads and writes -/

/-- The two halves of the input block the body loads: columns 0..127 (the lower bounds) and columns 128..255 (the
    upper bounds), each over all 2048 rows. -/
abbrev rL : Rect S2048x256 := Rect.unit (s := S2048x256) ![0, 0] S2048x128.size Gen.inb_S2048x256_S2048x128_0_0
abbrev rU : Rect S2048x256 := Rect.unit (s := S2048x256) ![0, 128] S2048x128.size Gen.inb_S2048x256_S2048x128_0_128
/-- The rectangle of every store: an output block whole. -/
abbrev rOut : Rect S2048x128 := Rect.unit (s := S2048x128) ![0, 0] S2048x128.size Gen.inb_S2048x128_S2048x128_0_0

/-! ## What the body leaves in each output buffer -/

section Out
variable (x0 : Vec F S2048x256 .f32)

/-- Output buffer W after the body, as a function of the input block x0: the contents its one store leaves. The
    stored value is the body's named vector (210, 206, 200, 202, 219, 212 for buffers 1 to 6) computed from the two
    halves of x0; the store's rectangle is the whole buffer, so the buffer reads the stored value at every index. -/
def out0_1 : Vec F S2048x128 .f32 := View.canon [⟨rOut, Stored.v210 (View.ld x0 rL) (View.ld x0 rU)⟩]
def out0_2 : Vec F S2048x128 .f32 := View.canon [⟨rOut, Stored.v206 (View.ld x0 rL) (View.ld x0 rU)⟩]
def out0_3 : Vec F S2048x128 .f32 := View.canon [⟨rOut, Stored.v200 (View.ld x0 rL) (View.ld x0 rU)⟩]
def out0_4 : Vec F S2048x128 .f32 := View.canon [⟨rOut, Stored.v202 (View.ld x0 rL) (View.ld x0 rU)⟩]
def out0_5 : Vec F S2048x128 .f32 := View.canon [⟨rOut, Stored.v219 (View.ld x0 rL) (View.ld x0 rU)⟩]
def out0_6 : Vec F S2048x128 .f32 := View.canon [⟨rOut, Stored.v212 (View.ld x0 rL) (View.ld x0 rU)⟩]

end Out

/-- One store through the whole-buffer rectangle covers the buffer (the rectangle tiles it: checked by evaluation). -/
theorem cover0 (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 4000000 in
/-- The body on whole staging buffers, the input's reading x0 and the six outputs' holding anything, runs to its
    continuation with the input's unchanged and output W's reading out0_W of x0: it loads the two halves of the
    input, loads each output buffer (a value it never uses) and then stores it whole, once. -/
theorem sound_kernel (c : Dev nD) (E : Set ℕ) (i : grid0.Coords)
    (arg1 : Memref sig .tc .vmem S2048x256 .f32) (harg1 : arg1.IsWhole)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (arg7 : Memref sig .tc .vmem S2048x128 .f32) (harg7 : arg7.IsWhole)
    (x0 : Vec F S2048x256 .f32) (K : PUnit → sProp 𝕄) :
    iprop(owns (c : Thread nD τ) arg1 fullShare x0
        ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0
            ∗ owns (c : Thread nD τ) arg2 fullShare (out0_1 x0) ∗ owns (c : Thread nD τ) arg3 fullShare (out0_2 x0)
            ∗ owns (c : Thread nD τ) arg4 fullShare (out0_3 x0) ∗ owns (c : Thread nD τ) arg5 fullShare (out0_4 x0)
            ∗ owns (c : Thread nD τ) arg6 fullShare (out0_5 x0) ∗ owns (c : Thread nD τ) arg7 fullShare (out0_6 x0)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data of the pipeline -/

/-- The proof data of the one pipeline on core c: its arrays as the region finds them; after the body at point t the
    input buffer at the point's block and output buffer W at out0_W of that block; the invariant that of a body with
    nothing of its own (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
    | ⟨3, _⟩ => out0_3 (iblk m c 0 t)
    | ⟨4, _⟩ => out0_4 (iblk m c 0 t)
    | ⟨5, _⟩ => out0_5 (iblk m c 0 t)
    | ⟨6, _⟩ => out0_6 (iblk m c 0 t)
  Φ _ := Pipeline.ΦA spec0 c
  q _ := fullShare
  owed _ := 0

/-- The proof data's arrays are the region-entry contents (a projection of the definition; the contents themselves,
    a fold over the relayouts, are never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 0 t) := by dsimp only [dats]
theorem after0_5 (c : Dev nD) (t : Fin cfg0.N) : (dats m 0 c).after 5 t = out0_5 (iblk m c 0 t) := by dsimp only [dats]
theorem after0_6 (c : Dev nD) (t : Fin cfg0.N) : (dats m 0 c).after 6 t = out0_6 (iblk m c 0 t) := by dsimp only [dats]

/-- The input's staging buffer holds the point's block when the body is called, at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point t: the invariant, what the core owes, and each window's current staging
    buffer whole at what the proof data say it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input's buffer holds the point's block, so the body's triple applies at that block;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which unfolds
-- plain definitions in the type of a metavariable
set_option backward.isDefEq.respectTransparency.types false in
/-- At the compiled mesh, for any values, from any memory with zero counters: every weakly fair execution of the
    program on the cores terminates, and in every final state every array of the region is what the library computes
    from the proof data and every other unscoped buffer is as the stacking operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim of the program, at any reading of the floats: it runs to the end, faults nowhere, and the
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Rule.lean ====
/-
  The bound-propagation rule of one neuron, as scalar functions of its lower bound `l` and upper bound `u`.

  Both programs apply, neuron by neuron, the same rule: from `l ≤ u` they compute the values and slopes of
  SPU(x) = x² − 1/2 (x ≥ 0), σ(−x) − 1 (x < 0) at the two ends, classify the interval (negative, positive,
  crossing with a rising or a falling secant, the secant above or below the tangent at `l`), and from the class
  pick a lower and an upper line (a slope and a shift each) and the two output bounds. Every step is a
  comparison, a selection, or one of + − × ÷ |·| √ max σ on scalars, so the rule is a function of `(l, u)`
  alone. It is written here once, over any float instance `F`, step by step under the names of the rule's
  intermediate quantities, with the few primitive operations that the two programs spell differently
  (negation, σ(−x), the quotient, |·|, √ and the negation of a mask) taken from a record `Prim`.
-/
import Idealize.ShloMosaic.PureOps

noncomputable section

namespace Cert.Spu

open Idealize.ShloMosaic

variable {F : FTy → Type} [FloatOps F]

/-- The primitive operations the two programs spell differently. -/
structure Prim (F : FTy → Type) where
  /-- `-x` -/
  neg : F .f32 → F .f32
  /-- `σ(−x) = 1 / (1 + eˣ)` -/
  sgm : F .f32 → F .f32
  /-- `x / y` -/
  div : F .f32 → F .f32 → F .f32
  /-- `|x|` -/
  abs : F .f32 → F .f32
  /-- `√x` -/
  sqrt : F .f32 → F .f32
  /-- the negation of a mask -/
  lnot : BitVec 1 → BitVec 1

variable (P : Prim F)

/-- The constants of the rule: 0, 1/2, 1, 2, 4 and −1/2, each an exact binary fraction. -/
def c0 : F .f32 := FloatOps.ofBits .f32 0x00000000#32
def chalf : F .f32 := FloatOps.ofBits .f32 0x3F000000#32
def c1 : F .f32 := FloatOps.ofBits .f32 0x3F800000#32
def c2 : F .f32 := FloatOps.ofBits .f32 0x40000000#32
def c4 : F .f32 := FloatOps.ofBits .f32 0x40800000#32
def cmhalf : F .f32 := FloatOps.ofBits .f32 0xBF000000#32

/-- `x ≥ 0`. -/
def ge0 (x : F .f32) : BitVec 1 := FloatOps.cmpf .oge x c0
/-- SPU(x): `x² − 1/2` for `x ≥ 0`, `σ(−x) − 1` below. -/
def spu (x : F .f32) : F .f32 :=
  Scalar.select (ge0 x) (FloatOps.subf (FloatOps.mulf x x) chalf) (FloatOps.subf (P.sgm x) c1)
/-- SPU′(x): `2x` for `x ≥ 0`, `−σ(−x)(1 − σ(−x))` below. -/
def dspu (x : F .f32) : F .f32 :=
  Scalar.select (ge0 x) (FloatOps.mulf c2 x) (FloatOps.mulf (P.neg (P.sgm x)) (FloatOps.subf c1 (P.sgm x)))

variable (l u : F .f32)

def vl : F .f32 := spu P l
def vu : F .f32 := spu P u
def tl : F .f32 := dspu P l
def tu : F .f32 := dspu P u
def diff : F .f32 := FloatOps.subf u l
/-- The interval lies below zero. -/
def isNeg : BitVec 1 := FloatOps.cmpf .olt u c0
/-- The interval lies above zero. -/
def isPos : BitVec 1 := ge0 l
/-- It contains zero. -/
def cross : BitVec 1 := P.lnot (IntOp.ori (isNeg u) (isPos l))
/-- The secant's slope. -/
def slope : F .f32 := P.div (FloatOps.subf (vu P u) (vl P l)) (diff l u)
def crossPos : BitVec 1 := IntOp.andi (FloatOps.cmpf .ogt (slope P l u) c0) (cross P l u)
def crossNeg : BitVec 1 := IntOp.andi (FloatOps.cmpf .olt (slope P l u) c0) (cross P l u)
def slo1 : F .f32 := Scalar.select (isPos l) (tl P l) c0
def shi1 : F .f32 := Scalar.select (isPos l) (slope P l u) c0
def slo2 : F .f32 := Scalar.select (isNeg u) (slope P l u) (slo1 P l)
def shi2 : F .f32 := Scalar.select (isNeg u) (tl P l) (shi1 P l u)
/-- Falling secant below the tangent at `l`. -/
def cnc : BitVec 1 := IntOp.andi (FloatOps.cmpf .olt (slope P l u) (tl P l)) (crossNeg P l u)
/-- Falling secant not below it. -/
def cnns : BitVec 1 := IntOp.andi (FloatOps.cmpf .oge (slope P l u) (tl P l)) (crossNeg P l u)
def cpns : BitVec 1 := IntOp.ori (crossPos P l u) (cnns P l u)
def shi3 : F .f32 := Scalar.select (cpns P l u) (slope P l u) (shi2 P l u)
def shiftsTemp : F .f32 :=
  Scalar.select (cpns P l u) (FloatOps.subf (vu P u) (FloatOps.mulf (shi3 P l u) u)) c0
def safeSh : F .f32 := Scalar.select (cpns P l u) (shi3 P l u) c1
/-- Where the upper line meets `y = −1/2`. -/
def xcut1 : F .f32 :=
  Scalar.select (cpns P l u) (P.div (FloatOps.subf (P.neg (shiftsTemp P l u)) chalf) (safeSh P l u)) c0
/-- `1/2 · |v + 1/2|`. -/
def halfAbs (v : F .f32) : F .f32 := FloatOps.mulf chalf (P.abs (FloatOps.addf v chalf))
def var1a : F .f32 :=
  Scalar.select (crossPos P l u) (FloatOps.mulf (halfAbs P (vu P u)) (FloatOps.subf u (xcut1 P l u))) c0
def cutoffa : F .f32 :=
  Scalar.select (crossPos P l u) (FloatOps.mulf (halfAbs P (vl P l)) (FloatOps.subf l (xcut1 P l u))) c0
def var1b : F .f32 :=
  Scalar.select (cnns P l u) (FloatOps.mulf (halfAbs P (vl P l)) (FloatOps.subf (xcut1 P l u) l)) (var1a P l u)
def cutoffb : F .f32 :=
  Scalar.select (cnns P l u) (FloatOps.mulf (halfAbs P (vu P u)) (FloatOps.subf (xcut1 P l u) u)) (cutoffa P l u)
def var1c : F .f32 :=
  Scalar.select (cpns P l u) (FloatOps.subf (var1b P l u) (cutoffb P l u)) (var1b P l u)
/-- The tangent at `u`: its intercept, its value at `l`. -/
def yit1 : F .f32 := Scalar.select (cpns P l u) (FloatOps.subf (vu P u) (FloatOps.mulf (tu P u) u)) c0
def newYl : F .f32 := Scalar.select (cpns P l u) (FloatOps.addf (FloatOps.mulf (tu P u) l) (yit1 P l u)) c0
def var2 : F .f32 :=
  Scalar.select (cpns P l u)
    (FloatOps.mulf (FloatOps.mulf chalf (P.abs (FloatOps.subf (newYl P l u) (vl P l)))) (diff l u)) c0
def indV2 : BitVec 1 := IntOp.andi (cpns P l u) (FloatOps.cmpf .olt (var1c P l u) (var2 P l u))
def indV1 : BitVec 1 := IntOp.andi (cpns P l u) (FloatOps.cmpf .ole (var2 P l u) (var1c P l u))
def slo3 : F .f32 := Scalar.select (indV2 P l u) c0 (slo2 P l u)
def slo4 : F .f32 := Scalar.select (indV1 P l u) (tu P u) (slo3 P l u)
def shi4 : F .f32 := Scalar.select (cnc P l u) (tl P l) (shi3 P l u)
def areaBox : F .f32 :=
  Scalar.select (cnc P l u) (FloatOps.mulf (P.abs (FloatOps.addf (vl P l) chalf)) (diff l u)) c0
def yit2 : F .f32 :=
  Scalar.select (cnc P l u) (FloatOps.subf (vl P l) (FloatOps.mulf (tl P l) l)) (yit1 P l u)
def safeTl : F .f32 := Scalar.select (cnc P l u) (tl P l) c1
def xcut2 : F .f32 :=
  Scalar.select (cnc P l u) (P.div (FloatOps.subf (P.neg (yit2 P l u)) chalf) (safeTl P l u)) (xcut1 P l u)
def var1d : F .f32 :=
  Scalar.select (cnc P l u) (FloatOps.mulf (halfAbs P (vl P l)) (FloatOps.subf (xcut2 P l u) l)) (var1c P l u)
def cutoffc : F .f32 :=
  Scalar.select (cnc P l u) (FloatOps.mulf (halfAbs P (vu P u)) (FloatOps.subf (xcut2 P l u) u)) (cutoffb P l u)
def var1e : F .f32 :=
  Scalar.select (cnc P l u) (FloatOps.subf (var1d P l u) (cutoffc P l u)) (var1d P l u)
/-- The triangle is the smaller area. -/
def tri : BitVec 1 := IntOp.andi (cnc P l u) (FloatOps.cmpf .olt (var1e P l u) (areaBox P l u))
def sqrtArg : F .f32 :=
  Scalar.select (tri P l u)
    (FloatOps.addf (FloatOps.mulf (tl P l) (tl P l)) (FloatOps.mulf c4 (FloatOps.addf (yit2 P l u) chalf))) c1
/-- Where the tangent at `l` meets the curve again. -/
def newBound : F .f32 :=
  Scalar.select (tri P l u)
    (FloatOps.mulf chalf (FloatOps.addf (tl P l) (P.sqrt (FloatOps.maximumf (sqrtArg P l u) c0)))) c0
def u' : F .f32 := Scalar.select (tri P l u) (newBound P l u) u
def vu' : F .f32 := Scalar.select (tri P l u) (spu P (newBound P l u)) (vu P u)
def boxLeq : BitVec 1 := IntOp.andi (cnc P l u) (FloatOps.cmpf .ole (areaBox P l u) (var1e P l u))
def slo5 : F .f32 := Scalar.select (boxLeq P l u) c0 (slo4 P l u)
def shi5 : F .f32 := Scalar.select (boxLeq P l u) c0 (shi4 P l u)
/-- The secant falls: the ends change roles. -/
def switched : BitVec 1 := FloatOps.cmpf .olt (slope P l u) c0
def vl2 : F .f32 := Scalar.select (switched P l u) (vu' P l u) (vl P l)
def vu2 : F .f32 := Scalar.select (switched P l u) (vl P l) (vu' P l u)
def l2 : F .f32 := Scalar.select (switched P l u) (u' P l u) l
def u2 : F .f32 := Scalar.select (switched P l u) l (u' P l u)
def outLo : F .f32 := Scalar.select (cross P l u) cmhalf (vl2 P l u)
def outHi : F .f32 := vu2 P l u
def shiftHi : F .f32 := FloatOps.subf (vu2 P l u) (FloatOps.mulf (shi5 P l u) (u2 P l u))
def shiftLo1 : F .f32 := FloatOps.subf (vl2 P l u) (FloatOps.mulf (slo5 P l u) (l2 P l u))
def shiftLo2 : F .f32 := Scalar.select (crossNeg P l u) cmhalf (shiftLo1 P l u)
def shiftLo3 : F .f32 := Scalar.select (indV2 P l u) cmhalf (shiftLo2 P l u)
def shiftLo : F .f32 := Scalar.select (indV1 P l u) (yit2 P l u) (shiftLo3 P l u)

/-- The six results of the rule, in the order both programs lay them out: the output bounds, the two slopes,
    the two shifts. -/
def out (k : Fin 6) : F .f32 :=
  match k with
  | 0 => outLo P l u
  | 1 => outHi P l u
  | 2 => slo5 P l u
  | 3 => shi5 P l u
  | 4 => shiftLo P l u
  | 5 => shiftHi P l u

end Cert.Spu

end
-- ==== Proof.Target.lean ====
/-
  The rule applied to every neuron, and the two spellings of its primitive operations.

  `ruleArray P a` is the [N, 6] array whose row `n` holds the six results of the rule at the bounds in row `n` of
  the [N, 2] array `a`. The kernel spells `-x` as `0 - x`, `σ(−x)` by the one logistic operation and the negation
  of a mask as `xor true`; the reference spells `-x` as a negation, `σ(−x)` as `1 / (1 + e^{-(-x)})` and the
  negation of a mask as a complement. On the extended reals the two spellings are the same functions:
  `0 - x = -x`, and the logistic function is by definition `1 / (1 + e^{-x})`.
-/
import proofs.«103753_j14654428414206_2_alg».proof.Proof.Rule
import Idealize.ShloMosaic.PureOps.Ideal
import Idealize.ShloMosaic.Lib.ValueIdx

noncomputable section

namespace Cert.Spu

open Idealize.ShloMosaic Idealize.ShloMosaic.ValueIdx

variable {F : FTy → Type} [FloatOps F]

/-- Row `n` of the result: the rule at row `n` of the bounds. -/
def ruleArray (P : Prim F) (a : (⟨2, ![8388608, 2]⟩ : Shape).Idx → F .f32) :
    (⟨2, ![8388608, 6]⟩ : Shape).Idx → F .f32 :=
  fun i => out P (a (ix2 (i 0) 0)) (a (ix2 (i 0) 1)) (i 1)

/-- The kernel's spelling of the primitive operations. -/
def primK : Prim F where
  neg x := FloatOps.subf c0 x
  sgm x := FloatOps.logistic (FloatOps.subf c0 x)
  div := FloatOps.divf
  abs := FloatOps.absf
  sqrt := FloatOps.sqrt
  lnot b := IntOp.xori b 1#1

/-- The reference's spelling of the primitive operations. -/
def primH : Prim F where
  neg := FloatOps.hostNegf
  sgm x := FloatOps.hostDivf c1 (FloatOps.addf c1 (FloatOps.hostUnary .exp (FloatOps.hostNegf (FloatOps.hostNegf x))))
  div := FloatOps.hostDivf
  abs := FloatOps.hostAbsf
  sqrt := FloatOps.hostUnary .sqrt
  lnot b := ~~~b

end Cert.Spu

end
-- ==== Proof.KIPayload.lean ====
/-
  What the kernel body stores, lane by lane: the rule at the lane's two bounds.

  Every operation of the body is lane-wise, and the rule (Rule.lean) was written operation by operation in the
  body's order; so each stored vector, read at a lane `j`, unfolds to the corresponding result of the rule at
  the lower bound `v0 j` and the upper bound `v2 j` in the kernel's spelling of the primitives. The only step
  that is not an unfolding is the body's first one, a shape cast of each loaded vector to its own shape, which
  is the identity.
-/
import proofs.«103753_j14654428414206_2_alg».proof.Proof.KIStored
import proofs.«103753_j14654428414206_2_alg».proof.Proof.Target
import Idealize.ShloMosaic.Lib.Pipeline.Value

noncomputable section

namespace Cert.KernelIdeal.Stored

open Idealize.ShloMosaic Idealize.ShloMosaic.Pipeline Cert.KernelIdeal Cert.KernelIdeal.Gen

variable {F : FTy → Type} [FloatOps F]

/-- A shape cast to the same shape changes nothing. -/
theorem v1_eq (v0 v2 : Vec F S2048x128 .f32) : v1 v0 v2 = v0 := by
  unfold v1 k0_pay1; exact shapeCast_self _ _
theorem v3_eq (v0 v2 : Vec F S2048x128 .f32) : v3 v0 v2 = v2 := by
  unfold v3 k0_pay2; exact shapeCast_self _ _

/-! Each stored vector at a lane, over the cast vectors: one unfolding of the rule per operation of the body. -/

set_option maxHeartbeats 4000000 in
theorem v210_cast (v0 v2 : Vec F S2048x128 .f32) (j : S2048x128.Idx) :
    v210 v0 v2 j = Cert.Spu.outLo Cert.Spu.primK (v1 v0 v2 j) (v3 v0 v2 j) := rfl
set_option maxHeartbeats 4000000 in
theorem v206_cast (v0 v2 : Vec F S2048x128 .f32) (j : S2048x128.Idx) :
    v206 v0 v2 j = Cert.Spu.outHi Cert.Spu.primK (v1 v0 v2 j) (v3 v0 v2 j) := rfl
set_option maxHeartbeats 4000000 in
theorem v200_cast (v0 v2 : Vec F S2048x128 .f32) (j : S2048x128.Idx) :
    v200 v0 v2 j = Cert.Spu.slo5 Cert.Spu.primK (v1 v0 v2 j) (v3 v0 v2 j) := rfl
set_option maxHeartbeats 4000000 in
theorem v202_cast (v0 v2 : Vec F S2048x128 .f32) (j : S2048x128.Idx) :
    v202 v0 v2 j = Cert.Spu.shi5 Cert.Spu.primK (v1 v0 v2 j) (v3 v0 v2 j) := rfl
set_option maxHeartbeats 4000000 in
theorem v219_cast (v0 v2 : Vec F S2048x128 .f32) (j : S2048x128.Idx) :
    v219 v0 v2 j = Cert.Spu.shiftLo Cert.Spu.primK (v1 v0 v2 j) (v3 v0 v2 j) := rfl
set_option maxHeartbeats 4000000 in
theorem v212_cast (v0 v2 : Vec F S2048x128 .f32) (j : S2048x128.Idx) :
    v212 v0 v2 j = Cert.Spu.shiftHi Cert.Spu.primK (v1 v0 v2 j) (v3 v0 v2 j) := rfl

/-! The same over the loaded vectors themselves. -/

theorem v210_apply (v0 v2 : Vec F S2048x128 .f32) (j : S2048x128.Idx) :
    v210 v0 v2 j = Cert.Spu.outLo Cert.Spu.primK (v0 j) (v2 j) := by
  rw [v210_cast, v1_eq, v3_eq]
theorem v206_apply (v0 v2 : Vec F S2048x128 .f32) (j : S2048x128.Idx) :
    v206 v0 v2 j = Cert.Spu.outHi Cert.Spu.primK (v0 j) (v2 j) := by
  rw [v206_cast, v1_eq, v3_eq]
theorem v200_apply (v0 v2 : Vec F S2048x128 .f32) (j : S2048x128.Idx) :
    v200 v0 v2 j = Cert.Spu.slo5 Cert.Spu.primK (v0 j) (v2 j) := by
  rw [v200_cast, v1_eq, v3_eq]
theorem v202_apply (v0 v2 : Vec F S2048x128 .f32) (j : S2048x128.Idx) :
    v202 v0 v2 j = Cert.Spu.shi5 Cert.Spu.primK (v0 j) (v2 j) := by
  rw [v202_cast, v1_eq, v3_eq]
theorem v219_apply (v0 v2 : Vec F S2048x128 .f32) (j : S2048x128.Idx) :
    v219 v0 v2 j = Cert.Spu.shiftLo Cert.Spu.primK (v0 j) (v2 j) := by
  rw [v219_cast, v1_eq, v3_eq]
theorem v212_apply (v0 v2 : Vec F S2048x128 .f32) (j : S2048x128.Idx) :
    v212 v0 v2 j = Cert.Spu.shiftHi Cert.Spu.primK (v0 j) (v2 j) := by
  rw [v212_cast, v1_eq, v3_eq]

end Cert.KernelIdeal.Stored

end
-- ==== Proof.KIValue.lean ====
import proofs.«103753_j14654428414206_2_alg».proof.Proof.KIFrame
import proofs.«103753_j14654428414206_2_alg».proof.Proof.KIPayload
import Idealize.ShloMosaic.Lib.Pipeline.Value
import Idealize.ShloMosaic.Lib.ValueLayout
import Idealize.ShloMosaic.Lib.ValueIdx
import Idealize.ShloMosaic.Lib.Tactic

/-!
# The kernel program's result on the extended reals

The host re-lays the [8388608, 2] argument as a [65536, 256] array whose row r holds, in columns 0..127, the lower bounds
and, in columns 128..255, the upper bounds of neurons 128 r .. 128 r + 127. Point t of the grid reads rows
2048 t .. 2048 t + 2047 of that array and writes the same rows of six [65536, 128] planes: at neuron q of row r, one
result of the rule at the neuron's two bounds. The host then stacks the six planes along a new last axis and flattens
the stack to [8388608, 6]. This module reads the re-layout and the stacking at an index, reads the blocks at a point,
shows that each plane after the region is one function of the argument, and concludes that the result buffer holds
the rule applied to every row, the argument unchanged.
-/

set_option maxRecDepth 16384

noncomputable section

namespace Cert.KernelIdeal.HandValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

variable {α : Type}

/-- The relayout of the argument the host does before the region. -/
def relaid (a : S8388608x2.Idx → α) : S65536x256.Idx → α :=
  shapeCast S65536x256
    (transpose S65536x2x128 [0, 2, 1] (shapeCast S65536x128x2 a shapeCasts_S8388608x2_S65536x128x2)
      transposes_S65536x128x2_S65536x2x128_0_2_1)
    shapeCasts_S65536x2x128_S65536x256

/-- The re-laid argument at row r, column k: neuron k mod 128 of row r, its lower bound for k < 128 and its upper
    bound otherwise, that is entry (128 r + k mod 128, k / 128) of the argument. -/
theorem relaid_apply (a : S8388608x2.Idx → α) (r : Fin 65536) (k : Fin 256) (n : Fin 8388608) (b : Fin 2)
    (hn : n.val = r.val * 128 + k.val % 128) (hb : b.val = k.val / 128) :
    relaid a (ix2 r k) = a (ix2 n b) := by
  unfold relaid
  have hk := k.isLt
  refine (shapeCast_apply _ _ (ix2 r k) (ix3 r (⟨k.val / 128, by omega⟩ : Fin 2) (⟨k.val % 128, by omega⟩ : Fin 128)) ?_).trans ?_
  · rw [Shape.rowMajor_val_three, Shape.rowMajor_val_two]
    show (r.val * 2 + k.val / 128) * 128 + k.val % 128 = r.val * 256 + k.val
    omega
  refine (transpose_ix3_021_apply _ _ r _ _).trans ?_
  refine shapeCast_apply _ _ _ _ ?_
  rw [Shape.rowMajor_val_three, Shape.rowMajor_val_two]
  show n.val * 2 + b.val = (r.val * 128 + k.val % 128) * 2 + k.val / 128
  omega

/-- One plane as a [65536,128,1] array. -/
def plane1 (p : S65536x128.Idx → α) : S65536x128x1.Idx → α :=
  broadcastInDim S65536x128x1 ![0, 1] bcast_S65536x128_S65536x128x1_0_1 p

/-- The six planes stacked along a new last axis and flattened to [8388608, 6]. -/
def stacked (p0 p1 p2 p3 p4 p5 : S65536x128.Idx → α) : S8388608x6.Idx → α :=
  shapeCast S8388608x6
    (concatenate S65536x128x6 2 [⟨S65536x128x1, plane1 p0⟩, ⟨S65536x128x1, plane1 p1⟩, ⟨S65536x128x1, plane1 p2⟩,
        ⟨S65536x128x1, plane1 p3⟩, ⟨S65536x128x1, plane1 p4⟩, ⟨S65536x128x1, plane1 p5⟩]
      concatenates_S65536x128x1_S65536x128x1_S65536x128x1_S65536x128x1_S65536x128x1_S65536x128x1_S65536x128x6_d2)
    shapeCasts_S65536x128x6_S8388608x6

/-- The added axis has one position: the plane is read at the other two coordinates. -/
theorem plane1_apply (p : S65536x128.Idx → α) (r : Fin 65536) (q : Fin 128) (z : Fin 1) :
    plane1 p (ix3 r q z) = p (ix2 r q) := by
  unfold plane1
  exact broadcastInDim_apply _ _ _ _ _ fun a => match a with | ⟨0, _⟩ => rfl | ⟨1, _⟩ => rfl

/-- The stack at row n = 128 r + q, column k: plane k at neuron q of row r. -/
theorem stacked_apply (p0 p1 p2 p3 p4 p5 : S65536x128.Idx → α) (n : Fin 8388608) (k : Fin 6) (r : Fin 65536) (q : Fin 128)
    (hn : n.val = r.val * 128 + q.val) :
    stacked p0 p1 p2 p3 p4 p5 (ix2 n k) = (![p0, p1, p2, p3, p4, p5] k) (ix2 r q) := by
  unfold stacked
  refine (shapeCast_apply _ _ (ix2 n k) (ix3 r q k) ?_).trans ?_
  · rw [Shape.rowMajor_val_three, Shape.rowMajor_val_two]
    show (r.val * 128 + q.val) * 6 + k.val = n.val * 6 + k.val
    omega
  have key : ∀ (kk : Nat) (hkk : kk < 6) (p : S65536x128.Idx → α) (L : List ((s : Shape) × (s.Idx → α)))
      (hL : Shape.Concatenates (L.map (·.1)) S65536x128x6 2) (hlen : kk < L.length) (hx : L[kk] = ⟨S65536x128x1, plane1 p⟩)
      (hpre : (((L.take kk).map (·.1)).map fun s => if h : s.rank = S65536x128x6.rank then s.size ((2 : Fin S65536x128x6.rank).cast h.symm) else 0).sum = kk),
      concatenate S65536x128x6 2 L hL (ix3 r q (⟨kk, hkk⟩ : Fin 6)) = p (ix2 r q) := by
    intro kk hkk p L hL hlen hx hpre
    refine (concatenate_apply_piece (2 : Fin S65536x128x6.rank) L hL _ kk hlen S65536x128x1 (plane1 p) hx rfl kk hpre
      (ix3 r q (0 : Fin 1)) ?_ ?_).trans (plane1_apply p r q 0)
    · intro b hb
      match b with
      | ⟨0, _⟩ => rfl
      | ⟨1, _⟩ => rfl
      | ⟨2, _⟩ => exact absurd rfl hb
    · show kk + 0 = kk
      rfl
  match k with
  | ⟨0, h⟩ => exact key 0 h p0 _ _ h rfl rfl
  | ⟨1, h⟩ => exact key 1 h p1 _ _ h rfl rfl
  | ⟨2, h⟩ => exact key 2 h p2 _ _ h rfl rfl
  | ⟨3, h⟩ => exact key 3 h p3 _ _ h rfl rfl
  | ⟨4, h⟩ => exact key 4 h p4 _ _ h rfl rfl
  | ⟨5, h⟩ => exact key 5 h p5 _ _ h rfl rfl

variable {F : FTy → Type} [FloatOps F]

/-- The relaid argument is what the three host operations before the region leave in the region's input array. -/
theorem before_region (X : Valuation τ sig (Elt F)) :
    (StableHlo.after (hostOps0 (F := F)) X (Proc.devRef .tc main_v2) : S65536x256.Idx → Elt F .f32)
      = relaid (X (Proc.devRef .tc main_arg0) : S8388608x2.Idx → Elt F .f32) := by
  after_results
  rfl

/-- An operation over a literal family of six operands leaves, in its result buffer, its function of the six
    operands' contents, each read at its own buffer. -/
theorem nary6_result {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (G : Valuation τ sig Val) :
    (StableHlo.nary (τ := τ) ![x0, x1, x2, x3, x4, x5] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5)) (fun i => i.elim0))))))) := by
  rw [StableHlo.nary_result]; congr 1; funext k; fin_cases k <;> rfl

/-- The stacked planes are what the eight host operations after the region leave in the result buffer. -/
theorem after_region (X : Valuation τ sig (Elt F)) :
    (StableHlo.after (hostOps1 (F := F)) X (Proc.devRef .tc main_v11) : S8388608x6.Idx → Elt F .f32)
      = stacked (X (Proc.devRef .tc main_v3_0) : S65536x128.Idx → Elt F .f32) (X (Proc.devRef .tc main_v3_1) : S65536x128.Idx → Elt F .f32)
          (X (Proc.devRef .tc main_v3_2) : S65536x128.Idx → Elt F .f32) (X (Proc.devRef .tc main_v3_3) : S65536x128.Idx → Elt F .f32)
          (X (Proc.devRef .tc main_v3_4) : S65536x128.Idx → Elt F .f32) (X (Proc.devRef .tc main_v3_5) : S65536x128.Idx → Elt F .f32) := by
  simp only [StableHlo.after_cons, StableHlo.after_nil]
  rw [StableHlo.reshape_result, nary6_result]
  repeat (first
    | rw [StableHlo.unary_result]
    | (rw [StableHlo.unary_result_ne]; rotate_left; decide))
  rfl

/-! ## The blocks -/

section Blocks

/-- The zero offsets, however spelt. -/
theorem hz : (![0, 0] : Fin 2 → Nat) = fun _ => 0 := funext fun a => by fin_cases a <;> rfl

/-- A stored block at a lane: the scalar rule R at the two halves of the input block's row. -/
theorem stored_apply (S : Vec F S2048x128 .f32 → Vec F S2048x128 .f32 → FVec F S2048x128 .f32) (R : F .f32 → F .f32 → F .f32)
    (hS : ∀ v0 v2 j, S v0 v2 j = R (v0 j) (v2 j)) (x0 : Vec F S2048x256 .f32) (p : Fin 2048) (q : Fin 128)
    (ql qu : Fin 256) (hql : ql.val = q.val) (hqu : qu.val = 128 + q.val) :
    (View.canon [(⟨rOut, S (View.ld x0 rL) (View.ld x0 rU)⟩ : View.Piece (Elt F) S2048x128 .f32)] : Vec F S2048x128 .f32) (ix2 p q)
      = R (x0 (ix2 p ql)) (x0 (ix2 p qu)) := by
  rw [View.canon_unit_zero hz, hS]
  refine congrArg₂ R (congrArg x0 (funext fun a => Fin.ext ?_)) (congrArg x0 (funext fun a => Fin.ext ?_))
  · match a with
    | ⟨0, _⟩ => show 0 + 1 * p.val = p.val; omega
    | ⟨1, _⟩ => show 0 + 1 * q.val = ql.val; omega
  · match a with
    | ⟨0, _⟩ => show 0 + 1 * p.val = p.val; omega
    | ⟨1, _⟩ => show 128 + 1 * q.val = qu.val; omega

end Blocks

/-! ## From the blocks to the arrays -/

section Arrays

variable (m : (ℓ : Loc nD τ sig) → Buf (Elt F) ℓ) (ρ : Dev nD → PrngReg)

/-- The region's input array is the relaid argument. -/
theorem V_main_v2 (c : Dev nD) :
    (V m c main_v2 : S65536x256.Idx → Elt F .f32) = relaid (m ((c : Thread nD τ).loc main_arg0) : S8388608x2.Idx → Elt F .f32) := by
  show StableHlo.after hostOps0 (fun b => m (c, b)) (Proc.devRef .tc main_v2) = _
  exact before_region _

/-- The block index of every window at point t is (t, 0): each window moves down its array one block of 2048 rows
    per point and spans the array's columns. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)
theorem idx_facts2 : ∀ t : Fin cfg0.N, win0_2.index t (0 : Fin 2) = t.val ∧ win0_2.index t (1 : Fin 2) = 0 :=
  (by decide +kernel : ∀ t : Fin grid0.N, _)
theorem idx_facts3 : ∀ t : Fin cfg0.N, win0_3.index t (0 : Fin 2) = t.val ∧ win0_3.index t (1 : Fin 2) = 0 :=
  (by decide +kernel : ∀ t : Fin grid0.N, _)
theorem idx_facts4 : ∀ t : Fin cfg0.N, win0_4.index t (0 : Fin 2) = t.val ∧ win0_4.index t (1 : Fin 2) = 0 :=
  (by decide +kernel : ∀ t : Fin grid0.N, _)
theorem idx_facts5 : ∀ t : Fin cfg0.N, win0_5.index t (0 : Fin 2) = t.val ∧ win0_5.index t (1 : Fin 2) = 0 :=
  (by decide +kernel : ∀ t : Fin grid0.N, _)
theorem idx_facts6 : ∀ t : Fin cfg0.N, win0_6.index t (0 : Fin 2) = t.val ∧ win0_6.index t (1 : Fin 2) = 0 :=
  (by decide +kernel : ∀ t : Fin grid0.N, _)

/-- The input block of point t, read at (y0, y1): row t·2048 + y0 of the relaid argument at column y1. -/
theorem iblk_apply (c : Dev nD) (t : Fin cfg0.N) (y : S2048x256.Idx) (n : Fin 8388608) (b : Fin 2)
    (hn : n.val = (t.val * 2048 + (y 0).val) * 128 + (y 1).val % 128) (hb : b.val = (y 1).val / 128) :
    (iblk m c 0 t : Vec F S2048x256 .f32) y = (m ((c : Thread nD τ).loc main_arg0) : S8388608x2.Idx → Elt F .f32) (ix2 n b) := by
  have hi := idx_facts0 t
  have hN : cfg0.N = 32 := N_0
  have ht : t.val < 32 := hN ▸ t.isLt
  have hy0 : (y 0).val < 2048 := (y 0).isLt
  have hy1 : (y 1).val < 256 := (y 1).isLt
  unfold iblk
  rw [View.read_apply]
  show (V m c main_v2 : S65536x256.Idx → Elt F .f32) (((cfg0.win 0).blk t).view.emb y) = _
  rw [V_main_v2]
  have hj : (((cfg0.win 0).blk t).view.emb y : S65536x256.Idx)
      = ix2 (⟨t.val * 2048 + (y 0).val, by omega⟩ : Fin 65536) (⟨(y 1).val, hy1⟩ : Fin 256) := by
    funext a; apply Fin.ext
    match a with
    | ⟨0, _⟩ => show win0_0.index t (0 : Fin 2) * 2048 + 1 * (y 0).val = t.val * 2048 + (y 0).val; rw [hi.1]; omega
    | ⟨1, _⟩ => show win0_0.index t (1 : Fin 2) * 256 + 1 * (y 1).val = (y 1).val; rw [hi.2]; omega
  rw [hj]
  exact relaid_apply _ _ _ n b hn hb

/-- A result plane: the scalar rule R at the two bounds of neuron q of row r. -/
def planeOf (R : α → α → α) (a : S8388608x2.Idx → α) : S65536x128.Idx → α := fun i =>
  R (a (ix2 (⟨(i 0).val * 128 + (i 1).val, by have h0 := (i 0).isLt; have h1 := (i 1).isLt; show _ < 8388608; change (i 0).val < 65536 at h0; change (i 1).val < 128 at h1; omega⟩ : Fin 8388608) (0 : Fin 2)))
    (a (ix2 (⟨(i 0).val * 128 + (i 1).val, by have h0 := (i 0).isLt; have h1 := (i 1).isLt; show _ < 8388608; change (i 0).val < 65536 at h0; change (i 1).val < 128 at h1; omega⟩ : Fin 8388608) (1 : Fin 2)))

/-- What a point stores into an output block is the block of the result plane at that point. -/
theorem stored_block (S : Vec F S2048x128 .f32 → Vec F S2048x128 .f32 → FVec F S2048x128 .f32) (R : F .f32 → F .f32 → F .f32)
    (hS : ∀ v0 v2 j, S v0 v2 j = R (v0 j) (v2 j)) (c : Dev nD) (t : Fin cfg0.N) (j : S2048x128.Idx) (i : S65536x128.Idx)
    (hi0 : (i 0).val = t.val * 2048 + (j 0).val) (hi1 : (i 1).val = (j 1).val) :
    (View.canon [(⟨rOut, S (View.ld (iblk m c 0 t) rL) (View.ld (iblk m c 0 t) rU)⟩ : View.Piece (Elt F) S2048x128 .f32)] : Vec F S2048x128 .f32) j
      = planeOf R (m ((c : Thread nD τ).loc main_arg0) : S8388608x2.Idx → Elt F .f32) i := by
  have hj0 : (j 0).val < 2048 := (j 0).isLt
  have hj1 : (j 1).val < 128 := (j 1).isLt
  refine (congrArg _ (eq_ix2 j)).trans ?_
  refine (stored_apply S R hS (iblk m c 0 t) (j 0) (j 1) ⟨(j 1).val, by omega⟩ ⟨128 + (j 1).val, by omega⟩ rfl rfl).trans ?_
  unfold planeOf
  refine congrArg₂ R ?_ ?_
  · exact iblk_apply m c t _ _ _ (by show (i 0).val * 128 + (i 1).val = (t.val * 2048 + (j 0).val) * 128 + (j 1).val % 128; omega) (by show 0 = (j 1).val / 128; omega)
  · exact iblk_apply m c t _ _ _ (by show (i 0).val * 128 + (i 1).val = (t.val * 2048 + (j 0).val) * 128 + (128 + (j 1).val) % 128; omega) (by show 1 = (128 + (j 1).val) / 128; omega)

end Arrays

/-! ## The six output windows -/

section Windows

variable (m : (ℓ : Loc nD τ sig) → Buf (Elt F) ℓ) (ρ : Dev nD → PrngReg)

/-- The argument array as launched, on core c. -/
abbrev arg (c : Dev nD) : S8388608x2.Idx → Elt F .f32 := m ((c : Thread nD τ).loc main_arg0)

/-! ### Window 1: the lower output bounds -/

/-- What point t writes back to window 1 is block t of the plane of lower output bounds. -/
theorem flushed1_eq (c : Dev nD) (t : Fin cfg0.N) :
    (dats m 0 c).flushed 1 t = ((cfg0.win 1).blk t).view.read (Elt F) (planeOf (Cert.Spu.outLo Cert.Spu.primK) (arg m c)) := by
  show (cfg0.win 1).cut (grid0.coords t) ((dats m 0 c).after 1 t) = _
  rw [after0_1]
  unfold out0_1
  have hi := idx_facts1 t
  funext j
  exact stored_block m Stored.v210 (Cert.Spu.outLo Cert.Spu.primK) Stored.v210_apply c t j (((cfg0.win 1).blk t).view.emb j)
    (by show win0_1.index t (0 : Fin 2) * 2048 + 1 * (j 0).val = t.val * 2048 + (j 0).val; rw [hi.1]; omega)
    (by show win0_1.index t (1 : Fin 2) * 128 + 1 * (j 1).val = (j 1).val; rw [hi.2]; omega)

/-- An index of the plane is in point t's block of window 1 iff each coordinate is in the block's range. -/
theorem mem_blk1 (t : Fin cfg0.N) (i : S65536x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v3_0).slice (win0_1.rect t)).set ↔ _
  rw [View.set_slice_whole, Rect.mem_set_unit]
  exact Iff.rfl

/-- Row r of the plane is in the block of point r / 2048. -/
theorem cover1 (i : S65536x128.Idx) : ∃ t : Fin cfg0.N, (cfg0.win 1).flush t = true ∧ i ∈ ((cfg0.win 1).blk t).view.set := by
  have h0 : (i 0).val < 65536 := (i 0).isLt
  have h1 : (i 1).val < 128 := (i 1).isLt
  have hN : cfg0.N = 32 := N_0
  refine ⟨⟨(i 0).val / 2048, by rw [hN]; omega⟩, flush0_1 _, ?_⟩
  rw [mem_blk1]
  have hi := idx_facts1 ⟨(i 0).val / 2048, by rw [hN]; omega⟩
  intro a
  match a with
  | ⟨0, _⟩ => show win0_1.index _ (0 : Fin 2) * 2048 ≤ (i 0).val ∧ (i 0).val < win0_1.index _ (0 : Fin 2) * 2048 + 2048; rw [hi.1]; show (i 0).val / 2048 * 2048 ≤ (i 0).val ∧ (i 0).val < (i 0).val / 2048 * 2048 + 2048; omega
  | ⟨1, _⟩ => show win0_1.index _ (1 : Fin 2) * 128 ≤ (i 1).val ∧ (i 1).val < win0_1.index _ (1 : Fin 2) * 128 + 128; rw [hi.2]; omega

/-- So after the region window 1's array is the whole plane of lower output bounds. -/
theorem final1 (c : Dev nD) : (dats m 0 c).arrAt 1 cfg0.N = planeOf (Cert.Spu.outLo Cert.Spu.primK) (arg m c) :=
  (dats m 0 c).arrAt_eq_of_cover 1 (planeOf (Cert.Spu.outLo Cert.Spu.primK) (arg m c)) (fun t _ => flushed1_eq m c t) cover1

/-! ### Window 2: the upper output bounds -/

/-- What point t writes back to window 2 is block t of the plane of upper output bounds. -/
theorem flushed2_eq (c : Dev nD) (t : Fin cfg0.N) :
    (dats m 0 c).flushed 2 t = ((cfg0.win 2).blk t).view.read (Elt F) (planeOf (Cert.Spu.outHi Cert.Spu.primK) (arg m c)) := by
  show (cfg0.win 2).cut (grid0.coords t) ((dats m 0 c).after 2 t) = _
  rw [after0_2]
  unfold out0_2
  have hi := idx_facts2 t
  funext j
  exact stored_block m Stored.v206 (Cert.Spu.outHi Cert.Spu.primK) Stored.v206_apply c t j (((cfg0.win 2).blk t).view.emb j)
    (by show win0_2.index t (0 : Fin 2) * 2048 + 1 * (j 0).val = t.val * 2048 + (j 0).val; rw [hi.1]; omega)
    (by show win0_2.index t (1 : Fin 2) * 128 + 1 * (j 1).val = (j 1).val; rw [hi.2]; omega)

/-- An index of the plane is in point t's block of window 2 iff each coordinate is in the block's range. -/
theorem mem_blk2 (t : Fin cfg0.N) (i : S65536x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v3_1).slice (win0_2.rect t)).set ↔ _
  rw [View.set_slice_whole, Rect.mem_set_unit]
  exact Iff.rfl

/-- Row r of the plane is in the block of point r / 2048. -/
theorem cover2 (i : S65536x128.Idx) : ∃ t : Fin cfg0.N, (cfg0.win 2).flush t = true ∧ i ∈ ((cfg0.win 2).blk t).view.set := by
  have h0 : (i 0).val < 65536 := (i 0).isLt
  have h1 : (i 1).val < 128 := (i 1).isLt
  have hN : cfg0.N = 32 := N_0
  refine ⟨⟨(i 0).val / 2048, by rw [hN]; omega⟩, flush0_2 _, ?_⟩
  rw [mem_blk2]
  have hi := idx_facts2 ⟨(i 0).val / 2048, by rw [hN]; omega⟩
  intro a
  match a with
  | ⟨0, _⟩ => show win0_2.index _ (0 : Fin 2) * 2048 ≤ (i 0).val ∧ (i 0).val < win0_2.index _ (0 : Fin 2) * 2048 + 2048; rw [hi.1]; show (i 0).val / 2048 * 2048 ≤ (i 0).val ∧ (i 0).val < (i 0).val / 2048 * 2048 + 2048; omega
  | ⟨1, _⟩ => show win0_2.index _ (1 : Fin 2) * 128 ≤ (i 1).val ∧ (i 1).val < win0_2.index _ (1 : Fin 2) * 128 + 128; rw [hi.2]; omega

/-- So after the region window 2's array is the whole plane of upper output bounds. -/
theorem final2 (c : Dev nD) : (dats m 0 c).arrAt 2 cfg0.N = planeOf (Cert.Spu.outHi Cert.Spu.primK) (arg m c) :=
  (dats m 0 c).arrAt_eq_of_cover 2 (planeOf (Cert.Spu.outHi Cert.Spu.primK) (arg m c)) (fun t _ => flushed2_eq m c t) cover2

/-! ### Window 3: the lower slopes -/

/-- What point t writes back to window 3 is block t of the plane of lower slopes. -/
theorem flushed3_eq (c : Dev nD) (t : Fin cfg0.N) :
    (dats m 0 c).flushed 3 t = ((cfg0.win 3).blk t).view.read (Elt F) (planeOf (Cert.Spu.slo5 Cert.Spu.primK) (arg m c)) := by
  show (cfg0.win 3).cut (grid0.coords t) ((dats m 0 c).after 3 t) = _
  rw [after0_3]
  unfold out0_3
  have hi := idx_facts3 t
  funext j
  exact stored_block m Stored.v200 (Cert.Spu.slo5 Cert.Spu.primK) Stored.v200_apply c t j (((cfg0.win 3).blk t).view.emb j)
    (by show win0_3.index t (0 : Fin 2) * 2048 + 1 * (j 0).val = t.val * 2048 + (j 0).val; rw [hi.1]; omega)
    (by show win0_3.index t (1 : Fin 2) * 128 + 1 * (j 1).val = (j 1).val; rw [hi.2]; omega)

/-- An index of the plane is in point t's block of window 3 iff each coordinate is in the block's range. -/
theorem mem_blk3 (t : Fin cfg0.N) (i : S65536x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v3_2).slice (win0_3.rect t)).set ↔ _
  rw [View.set_slice_whole, Rect.mem_set_unit]
  exact Iff.rfl

/-- Row r of the plane is in the block of point r / 2048. -/
theorem cover3 (i : S65536x128.Idx) : ∃ t : Fin cfg0.N, (cfg0.win 3).flush t = true ∧ i ∈ ((cfg0.win 3).blk t).view.set := by
  have h0 : (i 0).val < 65536 := (i 0).isLt
  have h1 : (i 1).val < 128 := (i 1).isLt
  have hN : cfg0.N = 32 := N_0
  refine ⟨⟨(i 0).val / 2048, by rw [hN]; omega⟩, flush0_3 _, ?_⟩
  rw [mem_blk3]
  have hi := idx_facts3 ⟨(i 0).val / 2048, by rw [hN]; omega⟩
  intro a
  match a with
  | ⟨0, _⟩ => show win0_3.index _ (0 : Fin 2) * 2048 ≤ (i 0).val ∧ (i 0).val < win0_3.index _ (0 : Fin 2) * 2048 + 2048; rw [hi.1]; show (i 0).val / 2048 * 2048 ≤ (i 0).val ∧ (i 0).val < (i 0).val / 2048 * 2048 + 2048; omega
  | ⟨1, _⟩ => show win0_3.index _ (1 : Fin 2) * 128 ≤ (i 1).val ∧ (i 1).val < win0_3.index _ (1 : Fin 2) * 128 + 128; rw [hi.2]; omega

/-- So after the region window 3's array is the whole plane of lower slopes. -/
theorem final3 (c : Dev nD) : (dats m 0 c).arrAt 3 cfg0.N = planeOf (Cert.Spu.slo5 Cert.Spu.primK) (arg m c) :=
  (dats m 0 c).arrAt_eq_of_cover 3 (planeOf (Cert.Spu.slo5 Cert.Spu.primK) (arg m c)) (fun t _ => flushed3_eq m c t) cover3

/-! ### Window 4: the upper slopes -/

/-- What point t writes back to window 4 is block t of the plane of upper slopes. -/
theorem flushed4_eq (c : Dev nD) (t : Fin cfg0.N) :
    (dats m 0 c).flushed 4 t = ((cfg0.win 4).blk t).view.read (Elt F) (planeOf (Cert.Spu.shi5 Cert.Spu.primK) (arg m c)) := by
  show (cfg0.win 4).cut (grid0.coords t) ((dats m 0 c).after 4 t) = _
  rw [after0_4]
  unfold out0_4
  have hi := idx_facts4 t
  funext j
  exact stored_block m Stored.v202 (Cert.Spu.shi5 Cert.Spu.primK) Stored.v202_apply c t j (((cfg0.win 4).blk t).view.emb j)
    (by show win0_4.index t (0 : Fin 2) * 2048 + 1 * (j 0).val = t.val * 2048 + (j 0).val; rw [hi.1]; omega)
    (by show win0_4.index t (1 : Fin 2) * 128 + 1 * (j 1).val = (j 1).val; rw [hi.2]; omega)

/-- An index of the plane is in point t's block of window 4 iff each coordinate is in the block's range. -/
theorem mem_blk4 (t : Fin cfg0.N) (i : S65536x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v3_3).slice (win0_4.rect t)).set ↔ _
  rw [View.set_slice_whole, Rect.mem_set_unit]
  exact Iff.rfl

/-- Row r of the plane is in the block of point r / 2048. -/
theorem cover4 (i : S65536x128.Idx) : ∃ t : Fin cfg0.N, (cfg0.win 4).flush t = true ∧ i ∈ ((cfg0.win 4).blk t).view.set := by
  have h0 : (i 0).val < 65536 := (i 0).isLt
  have h1 : (i 1).val < 128 := (i 1).isLt
  have hN : cfg0.N = 32 := N_0
  refine ⟨⟨(i 0).val / 2048, by rw [hN]; omega⟩, flush0_4 _, ?_⟩
  rw [mem_blk4]
  have hi := idx_facts4 ⟨(i 0).val / 2048, by rw [hN]; omega⟩
  intro a
  match a with
  | ⟨0, _⟩ => show win0_4.index _ (0 : Fin 2) * 2048 ≤ (i 0).val ∧ (i 0).val < win0_4.index _ (0 : Fin 2) * 2048 + 2048; rw [hi.1]; show (i 0).val / 2048 * 2048 ≤ (i 0).val ∧ (i 0).val < (i 0).val / 2048 * 2048 + 2048; omega
  | ⟨1, _⟩ => show win0_4.index _ (1 : Fin 2) * 128 ≤ (i 1).val ∧ (i 1).val < win0_4.index _ (1 : Fin 2) * 128 + 128; rw [hi.2]; omega

/-- So after the region window 4's array is the whole plane of upper slopes. -/
theorem final4 (c : Dev nD) : (dats m 0 c).arrAt 4 cfg0.N = planeOf (Cert.Spu.shi5 Cert.Spu.primK) (arg m c) :=
  (dats m 0 c).arrAt_eq_of_cover 4 (planeOf (Cert.Spu.shi5 Cert.Spu.primK) (arg m c)) (fun t _ => flushed4_eq m c t) cover4

/-! ### Window 5: the lower shifts -/

/-- What point t writes back to window 5 is block t of the plane of lower shifts. -/
theorem flushed5_eq (c : Dev nD) (t : Fin cfg0.N) :
    (dats m 0 c).flushed 5 t = ((cfg0.win 5).blk t).view.read (Elt F) (planeOf (Cert.Spu.shiftLo Cert.Spu.primK) (arg m c)) := by
  show (cfg0.win 5).cut (grid0.coords t) ((dats m 0 c).after 5 t) = _
  rw [after0_5]
  unfold out0_5
  have hi := idx_facts5 t
  funext j
  exact stored_block m Stored.v219 (Cert.Spu.shiftLo Cert.Spu.primK) Stored.v219_apply c t j (((cfg0.win 5).blk t).view.emb j)
    (by show win0_5.index t (0 : Fin 2) * 2048 + 1 * (j 0).val = t.val * 2048 + (j 0).val; rw [hi.1]; omega)
    (by show win0_5.index t (1 : Fin 2) * 128 + 1 * (j 1).val = (j 1).val; rw [hi.2]; omega)

/-- An index of the plane is in point t's block of window 5 iff each coordinate is in the block's range. -/
theorem mem_blk5 (t : Fin cfg0.N) (i : S65536x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v3_4).slice (win0_5.rect t)).set ↔ _
  rw [View.set_slice_whole, Rect.mem_set_unit]
  exact Iff.rfl

/-- Row r of the plane is in the block of point r / 2048. -/
theorem cover5 (i : S65536x128.Idx) : ∃ t : Fin cfg0.N, (cfg0.win 5).flush t = true ∧ i ∈ ((cfg0.win 5).blk t).view.set := by
  have h0 : (i 0).val < 65536 := (i 0).isLt
  have h1 : (i 1).val < 128 := (i 1).isLt
  have hN : cfg0.N = 32 := N_0
  refine ⟨⟨(i 0).val / 2048, by rw [hN]; omega⟩, flush0_5 _, ?_⟩
  rw [mem_blk5]
  have hi := idx_facts5 ⟨(i 0).val / 2048, by rw [hN]; omega⟩
  intro a
  match a with
  | ⟨0, _⟩ => show win0_5.index _ (0 : Fin 2) * 2048 ≤ (i 0).val ∧ (i 0).val < win0_5.index _ (0 : Fin 2) * 2048 + 2048; rw [hi.1]; show (i 0).val / 2048 * 2048 ≤ (i 0).val ∧ (i 0).val < (i 0).val / 2048 * 2048 + 2048; omega
  | ⟨1, _⟩ => show win0_5.index _ (1 : Fin 2) * 128 ≤ (i 1).val ∧ (i 1).val < win0_5.index _ (1 : Fin 2) * 128 + 128; rw [hi.2]; omega

/-- So after the region window 5's array is the whole plane of lower shifts. -/
theorem final5 (c : Dev nD) : (dats m 0 c).arrAt 5 cfg0.N = planeOf (Cert.Spu.shiftLo Cert.Spu.primK) (arg m c) :=
  (dats m 0 c).arrAt_eq_of_cover 5 (planeOf (Cert.Spu.shiftLo Cert.Spu.primK) (arg m c)) (fun t _ => flushed5_eq m c t) cover5

/-! ### Window 6: the upper shifts -/

/-- What point t writes back to window 6 is block t of the plane of upper shifts. -/
theorem flushed6_eq (c : Dev nD) (t : Fin cfg0.N) :
    (dats m 0 c).flushed 6 t = ((cfg0.win 6).blk t).view.read (Elt F) (planeOf (Cert.Spu.shiftHi Cert.Spu.primK) (arg m c)) := by
  show (cfg0.win 6).cut (grid0.coords t) ((dats m 0 c).after 6 t) = _
  rw [after0_6]
  unfold out0_6
  have hi := idx_facts6 t
  funext j
  exact stored_block m Stored.v212 (Cert.Spu.shiftHi Cert.Spu.primK) Stored.v212_apply c t j (((cfg0.win 6).blk t).view.emb j)
    (by show win0_6.index t (0 : Fin 2) * 2048 + 1 * (j 0).val = t.val * 2048 + (j 0).val; rw [hi.1]; omega)
    (by show win0_6.index t (1 : Fin 2) * 128 + 1 * (j 1).val = (j 1).val; rw [hi.2]; omega)

/-- An index of the plane is in point t's block of window 6 iff each coordinate is in the block's range. -/
theorem mem_blk6 (t : Fin cfg0.N) (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v3_5).slice (win0_6.rect t)).set ↔ _
  rw [View.set_slice_whole, Rect.mem_set_unit]
  exact Iff.rfl

/-- Row r of the plane is in the block of point r / 2048. -/
theorem cover6 (i : S65536x128.Idx) : ∃ t : Fin cfg0.N, (cfg0.win 6).flush t = true ∧ i ∈ ((cfg0.win 6).blk t).view.set := by
  have h0 : (i 0).val < 65536 := (i 0).isLt
  have h1 : (i 1).val < 128 := (i 1).isLt
  have hN : cfg0.N = 32 := N_0
  refine ⟨⟨(i 0).val / 2048, by rw [hN]; omega⟩, flush0_6 _, ?_⟩
  rw [mem_blk6]
  have hi := idx_facts6 ⟨(i 0).val / 2048, by rw [hN]; omega⟩
  intro a
  match a with
  | ⟨0, _⟩ => show win0_6.index _ (0 : Fin 2) * 2048 ≤ (i 0).val ∧ (i 0).val < win0_6.index _ (0 : Fin 2) * 2048 + 2048; rw [hi.1]; show (i 0).val / 2048 * 2048 ≤ (i 0).val ∧ (i 0).val < (i 0).val / 2048 * 2048 + 2048; omega
  | ⟨1, _⟩ => show win0_6.index _ (1 : Fin 2) * 128 ≤ (i 1).val ∧ (i 1).val < win0_6.index _ (1 : Fin 2) * 128 + 128; rw [hi.2]; omega

/-- So after the region window 6's array is the whole plane of upper shifts. -/
theorem final6 (c : Dev nD) : (dats m 0 c).arrAt 6 cfg0.N = planeOf (Cert.Spu.shiftHi Cert.Spu.primK) (arg m c) :=
  (dats m 0 c).arrAt_eq_of_cover 6 (planeOf (Cert.Spu.shiftHi Cert.Spu.primK) (arg m c)) (fun t _ => flushed6_eq m c t) cover6

end Windows

/-! ## The result array -/

section Result

/-- The six planes of the rule's results read at neuron q of row r: the rule at row n = 128 r + q of the argument. -/
theorem planes_at (a : S8388608x2.Idx → F .f32) (k : Fin 6) (r : Fin 65536) (q : Fin 128) (n : Fin 8388608)
    (hn : n.val = r.val * 128 + q.val) :
    (![planeOf (Cert.Spu.outLo Cert.Spu.primK) a, planeOf (Cert.Spu.outHi Cert.Spu.primK) a, planeOf (Cert.Spu.slo5 Cert.Spu.primK) a,
        planeOf (Cert.Spu.shi5 Cert.Spu.primK) a, planeOf (Cert.Spu.shiftLo Cert.Spu.primK) a, planeOf (Cert.Spu.shiftHi Cert.Spu.primK) a] k) (ix2 r q)
      = Cert.Spu.out Cert.Spu.primK (a (ix2 n 0)) (a (ix2 n 1)) k := by
  match k with
  | ⟨0, _⟩ => exact congrArg₂ (Cert.Spu.outLo Cert.Spu.primK) (congrArg a (congrArg (fun x => ix2 x (0 : Fin 2)) (Fin.ext hn.symm))) (congrArg a (congrArg (fun x => ix2 x (1 : Fin 2)) (Fin.ext hn.symm)))
  | ⟨1, _⟩ => exact congrArg₂ (Cert.Spu.outHi Cert.Spu.primK) (congrArg a (congrArg (fun x => ix2 x (0 : Fin 2)) (Fin.ext hn.symm))) (congrArg a (congrArg (fun x => ix2 x (1 : Fin 2)) (Fin.ext hn.symm)))
  | ⟨2, _⟩ => exact congrArg₂ (Cert.Spu.slo5 Cert.Spu.primK) (congrArg a (congrArg (fun x => ix2 x (0 : Fin 2)) (Fin.ext hn.symm))) (congrArg a (congrArg (fun x => ix2 x (1 : Fin 2)) (Fin.ext hn.symm)))
  | ⟨3, _⟩ => exact congrArg₂ (Cert.Spu.shi5 Cert.Spu.primK) (congrArg a (congrArg (fun x => ix2 x (0 : Fin 2)) (Fin.ext hn.symm))) (congrArg a (congrArg (fun x => ix2 x (1 : Fin 2)) (Fin.ext hn.symm)))
  | ⟨4, _⟩ => exact congrArg₂ (Cert.Spu.shiftLo Cert.Spu.primK) (congrArg a (congrArg (fun x => ix2 x (0 : Fin 2)) (Fin.ext hn.symm))) (congrArg a (congrArg (fun x => ix2 x (1 : Fin 2)) (Fin.ext hn.symm)))
  | ⟨5, _⟩ => exact congrArg₂ (Cert.Spu.shiftHi Cert.Spu.primK) (congrArg a (congrArg (fun x => ix2 x (0 : Fin 2)) (Fin.ext hn.symm))) (congrArg a (congrArg (fun x => ix2 x (1 : Fin 2)) (Fin.ext hn.symm)))

/-- The six planes stacked are the rule applied to every row of the argument. -/
theorem stacked_planes (a : S8388608x2.Idx → F .f32) :
    stacked (planeOf (Cert.Spu.outLo Cert.Spu.primK) a) (planeOf (Cert.Spu.outHi Cert.Spu.primK) a) (planeOf (Cert.Spu.slo5 Cert.Spu.primK) a)
        (planeOf (Cert.Spu.shi5 Cert.Spu.primK) a) (planeOf (Cert.Spu.shiftLo Cert.Spu.primK) a) (planeOf (Cert.Spu.shiftHi Cert.Spu.primK) a)
      = Cert.Spu.ruleArray Cert.Spu.primK a := by
  funext i
  have h0 : (i 0).val < 8388608 := (i 0).isLt
  refine (congrArg _ (eq_ix2 i)).trans ?_
  refine (stacked_apply _ _ _ _ _ _ (i 0) (i 1) ⟨(i 0).val / 128, by omega⟩ ⟨(i 0).val % 128, by omega⟩
    (by show (i 0).val = (i 0).val / 128 * 128 + (i 0).val % 128; omega)).trans ?_
  exact planes_at a (i 1) _ _ (i 0) (by show (i 0).val = (i 0).val / 128 * 128 + (i 0).val % 128; omega)

/-- The host operations after the region, run from contents whose six plane arrays are the planes of the rule's
    results, leave the rule applied to every row in the result buffer. -/
theorem tail_of_planes (X : Valuation τ sig (Elt F)) (a : S8388608x2.Idx → Elt F .f32)
    (h1 : (X (Proc.devRef .tc main_v3_0) : S65536x128.Idx → Elt F .f32) = planeOf (Cert.Spu.outLo Cert.Spu.primK) a)
    (h2 : (X (Proc.devRef .tc main_v3_1) : S65536x128.Idx → Elt F .f32) = planeOf (Cert.Spu.outHi Cert.Spu.primK) a)
    (h3 : (X (Proc.devRef .tc main_v3_2) : S65536x128.Idx → Elt F .f32) = planeOf (Cert.Spu.slo5 Cert.Spu.primK) a)
    (h4 : (X (Proc.devRef .tc main_v3_3) : S65536x128.Idx → Elt F .f32) = planeOf (Cert.Spu.shi5 Cert.Spu.primK) a)
    (h5 : (X (Proc.devRef .tc main_v3_4) : S65536x128.Idx → Elt F .f32) = planeOf (Cert.Spu.shiftLo Cert.Spu.primK) a)
    (h6 : (X (Proc.devRef .tc main_v3_5) : S65536x128.Idx → Elt F .f32) = planeOf (Cert.Spu.shiftHi Cert.Spu.primK) a) :
    (StableHlo.after (hostOps1 (F := F)) X (Proc.devRef .tc main_v11) : S8388608x6.Idx → Elt F .f32)
      = Cert.Spu.ruleArray Cert.Spu.primK a := by
  rw [after_region, h1, h2, h3, h4, h5, h6]
  exact stacked_planes a

variable (m : (ℓ : Loc nD τ sig) → Buf (Elt F) ℓ) (ρ : Dev nD → PrngReg)

/-- The result buffer after the whole program: the rule applied to every row of the argument. -/
theorem tail_value (c : Dev nD) :
    (Pipeline.afterTail₀ cfgs (dats m) 0 (V0 m) [hostOps1] c main_v11 : S8388608x6.Idx → Elt F .f32)
      = Cert.Spu.ruleArray Cert.Spu.primK (arg m c) := by
  unfold Pipeline.afterTail₀
  show StableHlo.after hostOps1 _ (Proc.devRef .tc main_v11) = _
  exact tail_of_planes _ (arg m c)
    ((Pipeline.withArrays_arr spec0 launch0.win.arr_inj c _ _ 1).trans (final1 m c))
    ((Pipeline.withArrays_arr spec0 launch0.win.arr_inj c _ _ 2).trans (final2 m c))
    ((Pipeline.withArrays_arr spec0 launch0.win.arr_inj c _ _ 3).trans (final3 m c))
    ((Pipeline.withArrays_arr spec0 launch0.win.arr_inj c _ _ 4).trans (final4 m c))
    ((Pipeline.withArrays_arr spec0 launch0.win.arr_inj c _ _ 5).trans (final5 m c))
    ((Pipeline.withArrays_arr spec0 launch0.win.arr_inj c _ _ 6).trans (final6 m c))

/-- The run of the program, at any reading of the floats: it ends with the rule applied to every row of the argument in
    the result buffer, and the argument as launched. -/
theorem run_value : θ_run (defs (F := F)) (onTc (τ := τ) (main (F := F))) ⟨m, fun _ => 0, ρ⟩ (fun r => ∀ c : Dev nD,
      (r.2.mem ((c.tc : Thread nD τ).loc main_v11) : S8388608x6.Idx → Elt F .f32) = Cert.Spu.ruleArray Cert.Spu.primK (arg m c)
      ∧ r.2.mem ((c.tc : Thread nD τ).loc main_arg0) = m ((c.tc : Thread nD τ).loc main_arg0)) :=
  (θ_run defs _ _).mono (fun r h c =>
      ⟨((h c).2 main_v11 (Pipeline.mem_restRefs_of main_v11 (by decide) (by decide))).trans (tail_value m c),
        ((h c).2 main_arg0 (Pipeline.mem_restRefs_of main_arg0 (by decide) (by decide))).trans (W_main_arg0 m (dats m) c)⟩)
    (run_main m ρ)

end Result

/-- The kernel program on the extended reals: after it the result buffer holds the rule applied to every row of the
    input, in the kernel's spelling of the primitive operations, and the input is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v11) : S8388608x6.Idx → Ideal .f32)
          = Cert.Spu.ruleArray (F := Ideal) Cert.Spu.primK (m ((c.tc : Thread nD τ).loc main_arg0) : S8388608x2.Idx → Ideal .f32)
      ∧ r.2.mem ((c.tc : Thread nD τ).loc main_arg0) = m ((c.tc : Thread nD τ).loc main_arg0)) :=
  run_value m ρ

end Cert.KernelIdeal.HandValue

end
-- ==== Proof.RefValue.lean ====
/-
  The reference's value: its result array is the rule applied to every row.

  The reference takes the two columns of the bounds as flat vectors `l` and `u`, computes every quantity of the rule on
  all rows at once — each host operation is one step (a comparison, a selection, or one of + − × ÷ |·| √ max, σ(−x)
  spelt 1 / (1 + e^{−(−x)})) of one named quantity of the rule, in the reference's spelling of the primitive
  operations —, turns the six resulting vectors into columns and sets them side by side. Read at row `n` and column
  `k` the result is therefore result `k` of the rule at the bounds in row `n`.
-/
import proofs.«103753_j14654428414206_2_alg».proof.Proof.RefRun
import proofs.«103753_j14654428414206_2_alg».proof.Proof.Target
import Idealize.ShloMosaic.Lib.StableHlo.Run
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spu

variable {F : FTy → Type} [FloatOps F]

/-- The lower bounds: column 0 of the bounds, as a flat vector. -/
def lv (a : S8388608x2.Idx → F .f32) : S8388608.Idx → F .f32 :=
  shapeCast S8388608 (extractStridedSlice S8388608x1 ![0, 0] a slices_S8388608x2_S8388608x1_0_0) shapeCasts_S8388608x1_S8388608
/-- The upper bounds: column 1. -/
def uv (a : S8388608x2.Idx → F .f32) : S8388608.Idx → F .f32 :=
  shapeCast S8388608 (extractStridedSlice S8388608x1 ![0, 1] a slices_S8388608x2_S8388608x1_0_1) shapeCasts_S8388608x1_S8388608

/-! ## The layout operations read at an index -/

section Layout
variable {α : Type}

/-- The flat vector of column `c` (a slice of width one, then the unit axis dropped) at `n` is the array at `(n, c)`. -/
theorem col_apply (a : S8388608x2.Idx → α) (c : Fin 2) (hs : S8388608x2.Slices ![0, c.val] S8388608x1)
    (hc : S8388608x1.ShapeCasts S8388608) (n : Fin 8388608) :
    shapeCast S8388608 (extractStridedSlice S8388608x1 ![0, c.val] a hs) hc (ValueIdx.ix1 n) = a (ValueIdx.ix2 n c) := by
  refine (shapeCast_apply _ hc (ValueIdx.ix1 n) (ValueIdx.ix2 n (0 : Fin 1)) ?_).trans ?_
  · rw [Shape.rowMajor_val_two, Shape.rowMajor_val_one]
    show n.val * 1 + 0 = n.val
    rw [Nat.mul_one, Nat.add_zero]
  · refine extractStridedSlice_apply _ a hs _ (ValueIdx.ix2 n c) fun b => ?_
    match b with
    | ⟨0, _⟩ => exact (Nat.zero_add _).symm
    | ⟨1, _⟩ => rfl

/-- A flat vector broadcast to one column, read at `(n, 0)`. -/
theorem toCol_apply (x : S8388608.Idx → α) (h : S8388608.BroadcastsInDim S8388608x1 (![0] : Fin 1 → Fin S8388608x1.rank))
    (n : Fin 8388608) :
    broadcastInDim S8388608x1 ![0] h x (ValueIdx.ix2 n (0 : Fin 1)) = x (ValueIdx.ix1 n) := by
  refine broadcastInDim_apply _ h x _ (ValueIdx.ix1 n) fun b => ?_
  match b with
  | ⟨0, _⟩ => rfl

/-- Six columns set side by side, read at `(n, k)`: column `k` at `(n, 0)`. -/
theorem six_apply (p : Fin 6 → S8388608x1.Idx → α)
    (h : Shape.Concatenates ([(⟨S8388608x1, p 0⟩ : (s : Shape) × (s.Idx → α)), ⟨S8388608x1, p 1⟩, ⟨S8388608x1, p 2⟩,
      ⟨S8388608x1, p 3⟩, ⟨S8388608x1, p 4⟩, ⟨S8388608x1, p 5⟩].map (·.1)) S8388608x6 1)
    (n : Fin 8388608) (k : Fin 6) :
    concatenate S8388608x6 1 [⟨S8388608x1, p 0⟩, ⟨S8388608x1, p 1⟩, ⟨S8388608x1, p 2⟩, ⟨S8388608x1, p 3⟩,
      ⟨S8388608x1, p 4⟩, ⟨S8388608x1, p 5⟩] h (ValueIdx.ix2 n k) = p k (ValueIdx.ix2 n (0 : Fin 1)) := by
  have hi : ∀ (k : Fin 6) (b : Fin S8388608x1.rank), b.cast (rfl : S8388608x1.rank = S8388608x6.rank) ≠ 1 →
      ((ValueIdx.ix2 n (0 : Fin 1) : S8388608x1.Idx) b).val
        = ((ValueIdx.ix2 n k : S8388608x6.Idx) (b.cast (rfl : S8388608x1.rank = S8388608x6.rank))).val := by
    intro k b hb
    match b with
    | ⟨0, _⟩ => rfl
    | ⟨1, _⟩ => exact absurd rfl hb
  match k with
  | ⟨0, _⟩ => exact concatenate_apply_piece 1 _ h _ 0 (by show 0 < 6; decide) S8388608x1 (p 0) rfl rfl 0 rfl _ (hi 0) rfl
  | ⟨1, _⟩ => exact concatenate_apply_piece 1 _ h _ 1 (by show 1 < 6; decide) S8388608x1 (p 1) rfl rfl 1 rfl _ (hi 1) rfl
  | ⟨2, _⟩ => exact concatenate_apply_piece 1 _ h _ 2 (by show 2 < 6; decide) S8388608x1 (p 2) rfl rfl 2 rfl _ (hi 2) rfl
  | ⟨3, _⟩ => exact concatenate_apply_piece 1 _ h _ 3 (by show 3 < 6; decide) S8388608x1 (p 3) rfl rfl 3 rfl _ (hi 3) rfl
  | ⟨4, _⟩ => exact concatenate_apply_piece 1 _ h _ 4 (by show 4 < 6; decide) S8388608x1 (p 4) rfl rfl 4 rfl _ (hi 4) rfl
  | ⟨5, _⟩ => exact concatenate_apply_piece 1 _ h _ 5 (by show 5 < 6; decide) S8388608x1 (p 5) rfl rfl 5 rfl _ (hi 5) rfl

end Layout

/-- The lower bound of row `n`. -/
theorem lv_apply (a : S8388608x2.Idx → F .f32) (n : Fin 8388608) : lv a (ValueIdx.ix1 n) = a (ValueIdx.ix2 n 0) :=
  col_apply a 0 slices_S8388608x2_S8388608x1_0_0 shapeCasts_S8388608x1_S8388608 n
/-- The upper bound of row `n`. -/
theorem uv_apply (a : S8388608x2.Idx → F .f32) (n : Fin 8388608) : uv a (ValueIdx.ix1 n) = a (ValueIdx.ix2 n 1) :=
  col_apply a 1 slices_S8388608x2_S8388608x1_0_1 shapeCasts_S8388608x1_S8388608 n

/-! ## The named quantities, one by one

Each named quantity of the rule has a vector of its own in the reference: the one written by the last operation of
the quantity's definition. Just after that operation the vector holds, at every row `n`, the quantity at the bounds
`l n`, `u n` of the row. One lemma per quantity, in the order of the definitions: the quantity's definition is
unfolded once, the quantities it is defined from are read back as the contents of their own vectors (the lemmas
before), and what is left — the few operations between those vectors and this one, each a comparison, a selection or
one arithmetic operation taken row by row — holds by unfolding the operations. -/

theorem at_vl (V : Valuation τ sig (Elt F)) (n : S8388608.Idx) :
    after (List.take 24 (RunP.ops (F := F))) V (Proc.devRef .tc main_v18) n = Cert.Spu.vl primH (lv (V (Proc.devRef .tc main_arg0)) n) := by
  rw [Cert.Spu.vl]
  rfl

theorem at_vu (V : Valuation τ sig (Elt F)) (n : S8388608.Idx) :
    after (List.take 44 (RunP.ops (F := F))) V (Proc.devRef .tc main_v33) n = Cert.Spu.vu primH (uv (V (Proc.devRef .tc main_arg0)) n) := by
  rw [Cert.Spu.vu]
  rfl

theorem at_tl (V : Valuation τ sig (Elt F)) (n : S8388608.Idx) :
    after (List.take 65 (RunP.ops (F := F))) V (Proc.devRef .tc main_v49) n = Cert.Spu.tl primH (lv (V (Proc.devRef .tc main_arg0)) n) := by
  rw [Cert.Spu.tl]
  rfl

theorem at_tu (V : Valuation τ sig (Elt F)) (n : S8388608.Idx) :
    after (List.take 86 (RunP.ops (F := F))) V (Proc.devRef .tc main_v65) n = Cert.Spu.tu primH (uv (V (Proc.devRef .tc main_arg0)) n) := by
  rw [Cert.Spu.tu]
  rfl

theorem at_diff (V : Valuation τ sig (Elt F)) (n : S8388608.Idx) :
    after (List.take 87 (RunP.ops (F := F))) V (Proc.devRef .tc main_v66) n = Cert.Spu.diff (lv (V (Proc.devRef .tc main_arg0)) n) (uv (V (Proc.devRef .tc main_arg0)) n) := by
  rw [Cert.Spu.diff]
  rfl

theorem at_isNeg (V : Valuation τ sig (Elt F)) (n : S8388608.Idx) :
    after (List.take 92 (RunP.ops (F := F))) V (Proc.devRef .tc main_v69) n = Cert.Spu.isNeg (uv (V (Proc.devRef .tc main_arg0)) n) := by
  rw [Cert.Spu.isNeg]
  rfl

theorem at_isPos (V : Valuation τ sig (Elt F)) (n : S8388608.Idx) :
    after (List.take 95 (RunP.ops (F := F))) V (Proc.devRef .tc main_v71) n = Cert.Spu.isPos (lv (V (Proc.devRef .tc main_arg0)) n) := by
  rw [Cert.Spu.isPos]
  rfl

theorem at_cross (V : Valuation τ sig (Elt F)) (n : S8388608.Idx) :
    after (List.take 97 (RunP.ops (F := F))) V (Proc.devRef .tc main_v73) n = Cert.Spu.cross primH (lv (V (Proc.devRef .tc main_arg0)) n) (uv (V (Proc.devRef .tc main_arg0)) n) := by
  rw [Cert.Spu.cross, ← at_isNeg V n, ← at_isPos V n]
  rfl

theorem at_slope (V : Valuation τ sig (Elt F)) (n : S8388608.Idx) :
    after (List.take 99 (RunP.ops (F := F))) V (Proc.devRef .tc main_v75) n = Cert.Spu.slope primH (lv (V (Proc.devRef .tc main_arg0)) n) (uv (V (Proc.devRef .tc main_arg0)) n) := by
  rw [Cert.Spu.slope, ← at_vu V n, ← at_vl V n, ← at_diff V n]
  rfl

theorem at_crossPos (V : Valuation τ sig (Elt F)) (n : S8388608.Idx) :
    after (List.take 103 (RunP.ops (F := F))) V (Proc.devRef .tc main_v78) n = Cert.Spu.crossPos primH (lv (V (Proc.devRef .tc main_arg0)) n) (uv (V (Proc.devRef .tc main_arg0)) n) := by
  rw [Cert.Spu.crossPos, ← at_slope V n, ← at_cross V n]
  rfl

theorem at_crossNeg (V : Valuation τ sig (Elt F)) (n : S8388608.Idx) :
    after (List.take 107 (RunP.ops (F := F))) V (Proc.devRef .tc main_v81) n = Cert.Spu.crossNeg primH (lv (V (Proc.devRef .tc main_arg0)) n) (uv (V (Proc.devRef .tc main_arg0)) n) := by
  rw [Cert.Spu.crossNeg, ← at_slope V n, ← at_cross V n]
  rfl

theorem at_slo1 (V : Valuation τ sig (Elt F)) (n : S8388608.Idx) :
    after (List.take 108 (RunP.ops (F := F))) V (Proc.devRef .tc main_v82) n = Cert.Spu.slo1 primH (lv (V (Proc.devRef .tc main_arg0)) n) := by
  rw [Cert.Spu.slo1, ← at_isPos V n, ← at_tl V n]
  rfl

theorem at_shi1 (V : Valuation τ sig (Elt F)) (n : S8388608.Idx) :
    after (List.take 109 (RunP.ops (F := F))) V (Proc.devRef .tc main_v83) n = Cert.Spu.shi1 primH (lv (V (Proc.devRef .tc main_arg0)) n) (uv (V (Proc.devRef .tc main_arg0)) n) := by
  rw [Cert.Spu.shi1, ← at_isPos V n, ← at_slope V n]
  rfl

theorem at_slo2 (V : Valuation τ sig (Elt F)) (n : S8388608.Idx) :
    after (List.take 110 (RunP.ops (F := F))) V (Proc.devRef .tc main_v84) n = Cert.Spu.slo2 primH (lv (V (Proc.devRef .tc main_arg0)) n) (uv (V (Proc.devRef .tc main_arg0)) n) := by
  rw [Cert.Spu.slo2, ← at_isNeg V n, ← at_slope V n, ← at_slo1 V n]
  rfl

theorem at_shi2 (V : Valuation τ sig (Elt F)) (n : S8388608.Idx) :
    after (List.take 111 (RunP.ops (F := F))) V (Proc.devRef .tc main_v85) n = Cert.Spu.shi2 primH (lv (V (Proc.devRef .tc main_arg0)) n) (uv (V (Proc.devRef .tc main_arg0)) n) := by
  rw [Cert.Spu.shi2, ← at_isNeg V n, ← at_tl V n, ← at_shi1 V n]
  rfl

theorem at_cnc (V : Valuation τ sig (Elt F)) (n : S8388608.Idx) :
    after (List.take 113 (RunP.ops (F := F))) V (Proc.devRef .tc main_v87) n = Cert.Spu.cnc primH (lv (V (Proc.devRef .tc main_arg0)) n) (uv (V (Proc.devRef .tc main_arg0)) n) := by
  rw [Cert.Spu.cnc, ← at_slope V n, ← at_tl V n, ← at_crossNeg V n]
  rfl

theorem at_cnns (V : Valuation τ sig (Elt F)) (n : S8388608.Idx) :
    after (List.take 115 (RunP.ops (F := F))) V (Proc.devRef .tc main_v89) n = Cert.Spu.cnns primH (lv (V (Proc.devRef .tc main_arg0)) n) (uv (V (Proc.devRef .tc main_arg0)) n) := by
  rw [Cert.Spu.cnns, ← at_slope V n, ← at_tl V n, ← at_crossNeg V n]
  rfl

theorem at_cpns (V : Valuation τ sig (Elt F)) (n : S8388608.Idx) :
    after (List.take 116 (RunP.ops (F := F))) V (Proc.devRef .tc main_v90) n = Cert.Spu.cpns primH (lv (V (Proc.devRef .tc main_arg0)) n) (uv (V (Proc.devRef .tc main_arg0)) n) := by
  rw [Cert.Spu.cpns, ← at_crossPos V n, ← at_cnns V n]
  rfl

theorem at_shi3 (V : Valuation τ sig (Elt F)) (n : S8388608.Idx) :
    after (List.take 117 (RunP.ops (F := F))) V (Proc.devRef .tc main_v91) n = Cert.Spu.shi3 primH (lv (V (Proc.devRef .tc main_arg0)) n) (uv (V (Proc.devRef .tc main_arg0)) n) := by
  rw [Cert.Spu.shi3, ← at_cpns V n, ← at_slope V n, ← at_shi2 V n]
  rfl

theorem at_shiftsTemp (V : Valuation τ sig (Elt F)) (n : S8388608.Idx) :
    after (List.take 120 (RunP.ops (F := F))) V (Proc.devRef .tc main_v94) n = Cert.Spu.shiftsTemp primH (lv (V (Proc.devRef .tc main_arg0)) n) (uv (V (Proc.devRef .tc main_arg0)) n) := by
  rw [Cert.Spu.shiftsTemp, ← at_cpns V n, ← at_vu V n, ← at_shi3 V n]
  rfl

theorem at_safeSh (V : Valuation τ sig (Elt F)) (n : S8388608.Idx) :
    after (List.take 124 (RunP.ops (F := F))) V (Proc.devRef .tc main_v95) n = Cert.Spu.safeSh primH (lv (V (Proc.devRef .tc main_arg0)) n) (uv (V (Proc.devRef .tc main_arg0)) n) := by
  rw [Cert.Spu.safeSh, ← at_cpns V n, ← at_shi3 V n]
  rfl

theorem at_xcut1 (V : Valuation τ sig (Elt F)) (n : S8388608.Idx) :
    after (List.take 130 (RunP.ops (F := F))) V (Proc.devRef .tc main_v100) n = Cert.Spu.xcut1 primH (lv (V (Proc.devRef .tc main_arg0)) n) (uv (V (Proc.devRef .tc main_arg0)) n) := by
  rw [Cert.Spu.xcut1, ← at_cpns V n, ← at_shiftsTemp V n, ← at_safeSh V n]
  rfl

theorem at_var1a (V : Valuation τ sig (Elt F)) (n : S8388608.Idx) :
    after (List.take 140 (RunP.ops (F := F))) V (Proc.devRef .tc main_v108) n = Cert.Spu.var1a primH (lv (V (Proc.devRef .tc main_arg0)) n) (uv (V (Proc.devRef .tc main_arg0)) n) := by
  rw [Cert.Spu.var1a, ← at_crossPos V n, ← at_vu V n, ← at_xcut1 V n]
  rfl

theorem at_cutoffa (V : Valuation τ sig (Elt F)) (n : S8388608.Idx) :
    after (List.take 150 (RunP.ops (F := F))) V (Proc.devRef .tc main_v116) n = Cert.Spu.cutoffa primH (lv (V (Proc.devRef .tc main_arg0)) n) (uv (V (Proc.devRef .tc main_arg0)) n) := by
  rw [Cert.Spu.cutoffa, ← at_crossPos V n, ← at_vl V n, ← at_xcut1 V n]
  rfl

theorem at_var1b (V : Valuation τ sig (Elt F)) (n : S8388608.Idx) :
    after (List.take 160 (RunP.ops (F := F))) V (Proc.devRef .tc main_v124) n = Cert.Spu.var1b primH (lv (V (Proc.devRef .tc main_arg0)) n) (uv (V (Proc.devRef .tc main_arg0)) n) := by
  rw [Cert.Spu.var1b, ← at_cnns V n, ← at_vl V n, ← at_xcut1 V n, ← at_var1a V n]
  rfl

theorem at_cutoffb (V : Valuation τ sig (Elt F)) (n : S8388608.Idx) :
    after (List.take 170 (RunP.ops (F := F))) V (Proc.devRef .tc main_v132) n = Cert.Spu.cutoffb primH (lv (V (Proc.devRef .tc main_arg0)) n) (uv (V (Proc.devRef .tc main_arg0)) n) := by
  rw [Cert.Spu.cutoffb, ← at_cnns V n, ← at_vu V n, ← at_xcut1 V n, ← at_cutoffa V n]
  rfl

theorem at_var1c (V : Valuation τ sig (Elt F)) (n : S8388608.Idx) :
    after (List.take 172 (RunP.ops (F := F))) V (Proc.devRef .tc main_v134) n = Cert.Spu.var1c primH (lv (V (Proc.devRef .tc main_arg0)) n) (uv (V (Proc.devRef .tc main_arg0)) n) := by
  rw [Cert.Spu.var1c, ← at_cpns V n, ← at_var1b V n, ← at_cutoffb V n]
  rfl

theorem at_yit1 (V : Valuation τ sig (Elt F)) (n : S8388608.Idx) :
    after (List.take 175 (RunP.ops (F := F))) V (Proc.devRef .tc main_v137) n = Cert.Spu.yit1 primH (lv (V (Proc.devRef .tc main_arg0)) n) (uv (V (Proc.devRef .tc main_arg0)) n) := by
  rw [Cert.Spu.yit1, ← at_cpns V n, ← at_vu V n, ← at_tu V n]
  rfl

theorem at_newYl (V : Valuation τ sig (Elt F)) (n : S8388608.Idx) :
    after (List.take 178 (RunP.ops (F := F))) V (Proc.devRef .tc main_v140) n = Cert.Spu.newYl primH (lv (V (Proc.devRef .tc main_arg0)) n) (uv (V (Proc.devRef .tc main_arg0)) n) := by
  rw [Cert.Spu.newYl, ← at_cpns V n, ← at_tu V n, ← at_yit1 V n]
  rfl

theorem at_var2 (V : Valuation τ sig (Elt F)) (n : S8388608.Idx) :
    after (List.take 185 (RunP.ops (F := F))) V (Proc.devRef .tc main_v146) n = Cert.Spu.var2 primH (lv (V (Proc.devRef .tc main_arg0)) n) (uv (V (Proc.devRef .tc main_arg0)) n) := by
  rw [Cert.Spu.var2, ← at_cpns V n, ← at_newYl V n, ← at_vl V n, ← at_diff V n]
  rfl

theorem at_indV2 (V : Valuation τ sig (Elt F)) (n : S8388608.Idx) :
    after (List.take 187 (RunP.ops (F := F))) V (Proc.devRef .tc main_v148) n = Cert.Spu.indV2 primH (lv (V (Proc.devRef .tc main_arg0)) n) (uv (V (Proc.devRef .tc main_arg0)) n) := by
  rw [Cert.Spu.indV2, ← at_cpns V n, ← at_var1c V n, ← at_var2 V n]
  rfl

theorem at_indV1 (V : Valuation τ sig (Elt F)) (n : S8388608.Idx) :
    after (List.take 189 (RunP.ops (F := F))) V (Proc.devRef .tc main_v150) n = Cert.Spu.indV1 primH (lv (V (Proc.devRef .tc main_arg0)) n) (uv (V (Proc.devRef .tc main_arg0)) n) := by
  rw [Cert.Spu.indV1, ← at_cpns V n, ← at_var2 V n, ← at_var1c V n]
  rfl

theorem at_slo3 (V : Valuation τ sig (Elt F)) (n : S8388608.Idx) :
    after (List.take 193 (RunP.ops (F := F))) V (Proc.devRef .tc main_v151) n = Cert.Spu.slo3 primH (lv (V (Proc.devRef .tc main_arg0)) n) (uv (V (Proc.devRef .tc main_arg0)) n) := by
  rw [Cert.Spu.slo3, ← at_indV2 V n, ← at_slo2 V n]
  rfl

theorem at_slo4 (V : Valuation τ sig (Elt F)) (n : S8388608.Idx) :
    after (List.take 194 (RunP.ops (F := F))) V (Proc.devRef .tc main_v152) n = Cert.Spu.slo4 primH (lv (V (Proc.devRef .tc main_arg0)) n) (uv (V (Proc.devRef .tc main_arg0)) n) := by
  rw [Cert.Spu.slo4, ← at_indV1 V n, ← at_tu V n, ← at_slo3 V n]
  rfl

theorem at_shi4 (V : Valuation τ sig (Elt F)) (n : S8388608.Idx) :
    after (List.take 195 (RunP.ops (F := F))) V (Proc.devRef .tc main_v153) n = Cert.Spu.shi4 primH (lv (V (Proc.devRef .tc main_arg0)) n) (uv (V (Proc.devRef .tc main_arg0)) n) := by
  rw [Cert.Spu.shi4, ← at_cnc V n, ← at_tl V n, ← at_shi3 V n]
  rfl

theorem at_areaBox (V : Valuation τ sig (Elt F)) (n : S8388608.Idx) :
    after (List.take 201 (RunP.ops (F := F))) V (Proc.devRef .tc main_v158) n = Cert.Spu.areaBox primH (lv (V (Proc.devRef .tc main_arg0)) n) (uv (V (Proc.devRef .tc main_arg0)) n) := by
  rw [Cert.Spu.areaBox, ← at_cnc V n, ← at_vl V n, ← at_diff V n]
  rfl

theorem at_yit2 (V : Valuation τ sig (Elt F)) (n : S8388608.Idx) :
    after (List.take 204 (RunP.ops (F := F))) V (Proc.devRef .tc main_v161) n = Cert.Spu.yit2 primH (lv (V (Proc.devRef .tc main_arg0)) n) (uv (V (Proc.devRef .tc main_arg0)) n) := by
  rw [Cert.Spu.yit2, ← at_cnc V n, ← at_vl V n, ← at_tl V n, ← at_yit1 V n]
  rfl

theorem at_safeTl (V : Valuation τ sig (Elt F)) (n : S8388608.Idx) :
    after (List.take 208 (RunP.ops (F := F))) V (Proc.devRef .tc main_v162) n = Cert.Spu.safeTl primH (lv (V (Proc.devRef .tc main_arg0)) n) (uv (V (Proc.devRef .tc main_arg0)) n) := by
  rw [Cert.Spu.safeTl, ← at_cnc V n, ← at_tl V n]
  rfl

theorem at_xcut2 (V : Valuation τ sig (Elt F)) (n : S8388608.Idx) :
    after (List.take 214 (RunP.ops (F := F))) V (Proc.devRef .tc main_v167) n = Cert.Spu.xcut2 primH (lv (V (Proc.devRef .tc main_arg0)) n) (uv (V (Proc.devRef .tc main_arg0)) n) := by
  rw [Cert.Spu.xcut2, ← at_cnc V n, ← at_yit2 V n, ← at_safeTl V n, ← at_xcut1 V n]
  rfl

theorem at_var1d (V : Valuation τ sig (Elt F)) (n : S8388608.Idx) :
    after (List.take 224 (RunP.ops (F := F))) V (Proc.devRef .tc main_v175) n = Cert.Spu.var1d primH (lv (V (Proc.devRef .tc main_arg0)) n) (uv (V (Proc.devRef .tc main_arg0)) n) := by
  rw [Cert.Spu.var1d, ← at_cnc V n, ← at_vl V n, ← at_xcut2 V n, ← at_var1c V n]
  rfl

theorem at_cutoffc (V : Valuation τ sig (Elt F)) (n : S8388608.Idx) :
    after (List.take 234 (RunP.ops (F := F))) V (Proc.devRef .tc main_v183) n = Cert.Spu.cutoffc primH (lv (V (Proc.devRef .tc main_arg0)) n) (uv (V (Proc.devRef .tc main_arg0)) n) := by
  rw [Cert.Spu.cutoffc, ← at_cnc V n, ← at_vu V n, ← at_xcut2 V n, ← at_cutoffb V n]
  rfl

theorem at_var1e (V : Valuation τ sig (Elt F)) (n : S8388608.Idx) :
    after (List.take 236 (RunP.ops (F := F))) V (Proc.devRef .tc main_v185) n = Cert.Spu.var1e primH (lv (V (Proc.devRef .tc main_arg0)) n) (uv (V (Proc.devRef .tc main_arg0)) n) := by
  rw [Cert.Spu.var1e, ← at_cnc V n, ← at_var1d V n, ← at_cutoffc V n]
  rfl

theorem at_tri (V : Valuation τ sig (Elt F)) (n : S8388608.Idx) :
    after (List.take 238 (RunP.ops (F := F))) V (Proc.devRef .tc main_v187) n = Cert.Spu.tri primH (lv (V (Proc.devRef .tc main_arg0)) n) (uv (V (Proc.devRef .tc main_arg0)) n) := by
  rw [Cert.Spu.tri, ← at_cnc V n, ← at_var1e V n, ← at_areaBox V n]
  rfl

theorem at_sqrtArg (V : Valuation τ sig (Elt F)) (n : S8388608.Idx) :
    after (List.take 250 (RunP.ops (F := F))) V (Proc.devRef .tc main_v194) n = Cert.Spu.sqrtArg primH (lv (V (Proc.devRef .tc main_arg0)) n) (uv (V (Proc.devRef .tc main_arg0)) n) := by
  rw [Cert.Spu.sqrtArg, ← at_tri V n, ← at_tl V n, ← at_yit2 V n]
  rfl

theorem at_newBound (V : Valuation τ sig (Elt F)) (n : S8388608.Idx) :
    after (List.take 259 (RunP.ops (F := F))) V (Proc.devRef .tc main_v201) n = Cert.Spu.newBound primH (lv (V (Proc.devRef .tc main_arg0)) n) (uv (V (Proc.devRef .tc main_arg0)) n) := by
  rw [Cert.Spu.newBound, ← at_tri V n, ← at_tl V n, ← at_sqrtArg V n]
  rfl

theorem at_uP (V : Valuation τ sig (Elt F)) (n : S8388608.Idx) :
    after (List.take 260 (RunP.ops (F := F))) V (Proc.devRef .tc main_v202) n = Cert.Spu.u' primH (lv (V (Proc.devRef .tc main_arg0)) n) (uv (V (Proc.devRef .tc main_arg0)) n) := by
  rw [Cert.Spu.u', ← at_tri V n, ← at_newBound V n]
  rfl

theorem at_vuP (V : Valuation τ sig (Elt F)) (n : S8388608.Idx) :
    after (List.take 281 (RunP.ops (F := F))) V (Proc.devRef .tc main_v218) n = Cert.Spu.vu' primH (lv (V (Proc.devRef .tc main_arg0)) n) (uv (V (Proc.devRef .tc main_arg0)) n) := by
  rw [Cert.Spu.vu', ← at_tri V n, ← at_newBound V n, ← at_vu V n]
  rfl

theorem at_boxLeq (V : Valuation τ sig (Elt F)) (n : S8388608.Idx) :
    after (List.take 283 (RunP.ops (F := F))) V (Proc.devRef .tc main_v220) n = Cert.Spu.boxLeq primH (lv (V (Proc.devRef .tc main_arg0)) n) (uv (V (Proc.devRef .tc main_arg0)) n) := by
  rw [Cert.Spu.boxLeq, ← at_cnc V n, ← at_areaBox V n, ← at_var1e V n]
  rfl

theorem at_slo5 (V : Valuation τ sig (Elt F)) (n : S8388608.Idx) :
    after (List.take 287 (RunP.ops (F := F))) V (Proc.devRef .tc main_v221) n = Cert.Spu.slo5 primH (lv (V (Proc.devRef .tc main_arg0)) n) (uv (V (Proc.devRef .tc main_arg0)) n) := by
  rw [Cert.Spu.slo5, ← at_boxLeq V n, ← at_slo4 V n]
  rfl

theorem at_shi5 (V : Valuation τ sig (Elt F)) (n : S8388608.Idx) :
    after (List.take 291 (RunP.ops (F := F))) V (Proc.devRef .tc main_v222) n = Cert.Spu.shi5 primH (lv (V (Proc.devRef .tc main_arg0)) n) (uv (V (Proc.devRef .tc main_arg0)) n) := by
  rw [Cert.Spu.shi5, ← at_boxLeq V n, ← at_shi4 V n]
  rfl

theorem at_switched (V : Valuation τ sig (Elt F)) (n : S8388608.Idx) :
    after (List.take 294 (RunP.ops (F := F))) V (Proc.devRef .tc main_v224) n = Cert.Spu.switched primH (lv (V (Proc.devRef .tc main_arg0)) n) (uv (V (Proc.devRef .tc main_arg0)) n) := by
  rw [Cert.Spu.switched, ← at_slope V n]
  rfl

theorem at_vl2 (V : Valuation τ sig (Elt F)) (n : S8388608.Idx) :
    after (List.take 295 (RunP.ops (F := F))) V (Proc.devRef .tc main_v225) n = Cert.Spu.vl2 primH (lv (V (Proc.devRef .tc main_arg0)) n) (uv (V (Proc.devRef .tc main_arg0)) n) := by
  rw [Cert.Spu.vl2, ← at_switched V n, ← at_vuP V n, ← at_vl V n]
  rfl

theorem at_vu2 (V : Valuation τ sig (Elt F)) (n : S8388608.Idx) :
    after (List.take 296 (RunP.ops (F := F))) V (Proc.devRef .tc main_v226) n = Cert.Spu.vu2 primH (lv (V (Proc.devRef .tc main_arg0)) n) (uv (V (Proc.devRef .tc main_arg0)) n) := by
  rw [Cert.Spu.vu2, ← at_switched V n, ← at_vl V n, ← at_vuP V n]
  rfl

theorem at_l2 (V : Valuation τ sig (Elt F)) (n : S8388608.Idx) :
    after (List.take 297 (RunP.ops (F := F))) V (Proc.devRef .tc main_v227) n = Cert.Spu.l2 primH (lv (V (Proc.devRef .tc main_arg0)) n) (uv (V (Proc.devRef .tc main_arg0)) n) := by
  rw [Cert.Spu.l2, ← at_switched V n, ← at_uP V n]
  rfl

theorem at_u2 (V : Valuation τ sig (Elt F)) (n : S8388608.Idx) :
    after (List.take 298 (RunP.ops (F := F))) V (Proc.devRef .tc main_v228) n = Cert.Spu.u2 primH (lv (V (Proc.devRef .tc main_arg0)) n) (uv (V (Proc.devRef .tc main_arg0)) n) := by
  rw [Cert.Spu.u2, ← at_switched V n, ← at_uP V n]
  rfl

theorem at_outLo (V : Valuation τ sig (Elt F)) (n : S8388608.Idx) :
    after (List.take 302 (RunP.ops (F := F))) V (Proc.devRef .tc main_v229) n = Cert.Spu.outLo primH (lv (V (Proc.devRef .tc main_arg0)) n) (uv (V (Proc.devRef .tc main_arg0)) n) := by
  rw [Cert.Spu.outLo, ← at_cross V n, ← at_vl2 V n]
  rfl

theorem at_outHi (V : Valuation τ sig (Elt F)) (n : S8388608.Idx) :
    after (List.take 296 (RunP.ops (F := F))) V (Proc.devRef .tc main_v226) n = Cert.Spu.outHi primH (lv (V (Proc.devRef .tc main_arg0)) n) (uv (V (Proc.devRef .tc main_arg0)) n) := by
  exact at_vu2 V n

theorem at_shiftHi (V : Valuation τ sig (Elt F)) (n : S8388608.Idx) :
    after (List.take 304 (RunP.ops (F := F))) V (Proc.devRef .tc main_v231) n = Cert.Spu.shiftHi primH (lv (V (Proc.devRef .tc main_arg0)) n) (uv (V (Proc.devRef .tc main_arg0)) n) := by
  rw [Cert.Spu.shiftHi, ← at_vu2 V n, ← at_shi5 V n, ← at_u2 V n]
  rfl

theorem at_shiftLo1 (V : Valuation τ sig (Elt F)) (n : S8388608.Idx) :
    after (List.take 306 (RunP.ops (F := F))) V (Proc.devRef .tc main_v233) n = Cert.Spu.shiftLo1 primH (lv (V (Proc.devRef .tc main_arg0)) n) (uv (V (Proc.devRef .tc main_arg0)) n) := by
  rw [Cert.Spu.shiftLo1, ← at_vl2 V n, ← at_slo5 V n, ← at_l2 V n]
  rfl

theorem at_shiftLo2 (V : Valuation τ sig (Elt F)) (n : S8388608.Idx) :
    after (List.take 310 (RunP.ops (F := F))) V (Proc.devRef .tc main_v234) n = Cert.Spu.shiftLo2 primH (lv (V (Proc.devRef .tc main_arg0)) n) (uv (V (Proc.devRef .tc main_arg0)) n) := by
  rw [Cert.Spu.shiftLo2, ← at_crossNeg V n, ← at_shiftLo1 V n]
  rfl

theorem at_shiftLo3 (V : Valuation τ sig (Elt F)) (n : S8388608.Idx) :
    after (List.take 314 (RunP.ops (F := F))) V (Proc.devRef .tc main_v235) n = Cert.Spu.shiftLo3 primH (lv (V (Proc.devRef .tc main_arg0)) n) (uv (V (Proc.devRef .tc main_arg0)) n) := by
  rw [Cert.Spu.shiftLo3, ← at_indV2 V n, ← at_shiftLo2 V n]
  rfl

theorem at_shiftLo (V : Valuation τ sig (Elt F)) (n : S8388608.Idx) :
    after (List.take 315 (RunP.ops (F := F))) V (Proc.devRef .tc main_v236) n = Cert.Spu.shiftLo primH (lv (V (Proc.devRef .tc main_arg0)) n) (uv (V (Proc.devRef .tc main_arg0)) n) := by
  rw [Cert.Spu.shiftLo, ← at_indV1 V n, ← at_yit2 V n, ← at_shiftLo3 V n]
  rfl

/-! ## The six result columns

Before the last operation each of the six columns holds, row by row, one result of the rule at the row's bounds. -/

theorem col0 (V : Valuation τ sig (Elt F)) :
    after (List.take 321 (RunP.ops (F := F))) V (Proc.devRef .tc main_v237)
      = broadcastInDim S8388608x1 ![0] bcast_S8388608_S8388608x1_0
          (fun n => Cert.Spu.outLo primH (lv (V (Proc.devRef .tc main_arg0)) n) (uv (V (Proc.devRef .tc main_arg0)) n)) :=
  (show after (List.take 321 (RunP.ops (F := F))) V (Proc.devRef .tc main_v237)
      = broadcastInDim S8388608x1 ![0] bcast_S8388608_S8388608x1_0
          (after (List.take 302 (RunP.ops (F := F))) V (Proc.devRef .tc main_v229)) from rfl).trans
    (congrArg _ (funext fun n => at_outLo V n))

theorem col1 (V : Valuation τ sig (Elt F)) :
    after (List.take 321 (RunP.ops (F := F))) V (Proc.devRef .tc main_v238)
      = broadcastInDim S8388608x1 ![0] bcast_S8388608_S8388608x1_0
          (fun n => Cert.Spu.outHi primH (lv (V (Proc.devRef .tc main_arg0)) n) (uv (V (Proc.devRef .tc main_arg0)) n)) :=
  (show after (List.take 321 (RunP.ops (F := F))) V (Proc.devRef .tc main_v238)
      = broadcastInDim S8388608x1 ![0] bcast_S8388608_S8388608x1_0
          (after (List.take 296 (RunP.ops (F := F))) V (Proc.devRef .tc main_v226)) from rfl).trans
    (congrArg _ (funext fun n => at_outHi V n))

theorem col2 (V : Valuation τ sig (Elt F)) :
    after (List.take 321 (RunP.ops (F := F))) V (Proc.devRef .tc main_v239)
      = broadcastInDim S8388608x1 ![0] bcast_S8388608_S8388608x1_0
          (fun n => Cert.Spu.slo5 primH (lv (V (Proc.devRef .tc main_arg0)) n) (uv (V (Proc.devRef .tc main_arg0)) n)) :=
  (show after (List.take 321 (RunP.ops (F := F))) V (Proc.devRef .tc main_v239)
      = broadcastInDim S8388608x1 ![0] bcast_S8388608_S8388608x1_0
          (after (List.take 287 (RunP.ops (F := F))) V (Proc.devRef .tc main_v221)) from rfl).trans
    (congrArg _ (funext fun n => at_slo5 V n))

theorem col3 (V : Valuation τ sig (Elt F)) :
    after (List.take 321 (RunP.ops (F := F))) V (Proc.devRef .tc main_v240)
      = broadcastInDim S8388608x1 ![0] bcast_S8388608_S8388608x1_0
          (fun n => Cert.Spu.shi5 primH (lv (V (Proc.devRef .tc main_arg0)) n) (uv (V (Proc.devRef .tc main_arg0)) n)) :=
  (show after (List.take 321 (RunP.ops (F := F))) V (Proc.devRef .tc main_v240)
      = broadcastInDim S8388608x1 ![0] bcast_S8388608_S8388608x1_0
          (after (List.take 291 (RunP.ops (F := F))) V (Proc.devRef .tc main_v222)) from rfl).trans
    (congrArg _ (funext fun n => at_shi5 V n))

theorem col4 (V : Valuation τ sig (Elt F)) :
    after (List.take 321 (RunP.ops (F := F))) V (Proc.devRef .tc main_v241)
      = broadcastInDim S8388608x1 ![0] bcast_S8388608_S8388608x1_0
          (fun n => Cert.Spu.shiftLo primH (lv (V (Proc.devRef .tc main_arg0)) n) (uv (V (Proc.devRef .tc main_arg0)) n)) :=
  (show after (List.take 321 (RunP.ops (F := F))) V (Proc.devRef .tc main_v241)
      = broadcastInDim S8388608x1 ![0] bcast_S8388608_S8388608x1_0
          (after (List.take 315 (RunP.ops (F := F))) V (Proc.devRef .tc main_v236)) from rfl).trans
    (congrArg _ (funext fun n => at_shiftLo V n))

theorem col5 (V : Valuation τ sig (Elt F)) :
    after (List.take 321 (RunP.ops (F := F))) V (Proc.devRef .tc main_v242)
      = broadcastInDim S8388608x1 ![0] bcast_S8388608_S8388608x1_0
          (fun n => Cert.Spu.shiftHi primH (lv (V (Proc.devRef .tc main_arg0)) n) (uv (V (Proc.devRef .tc main_arg0)) n)) :=
  (show after (List.take 321 (RunP.ops (F := F))) V (Proc.devRef .tc main_v242)
      = broadcastInDim S8388608x1 ![0] bcast_S8388608_S8388608x1_0
          (after (List.take 304 (RunP.ops (F := F))) V (Proc.devRef .tc main_v231)) from rfl).trans
    (congrArg _ (funext fun n => at_shiftHi V n))

/-! ## The result array -/

/-- No operation writes the argument. -/
theorem arg_kept (V : Valuation τ sig (Elt F)) :
    after (RunP.ops (F := F)) V (Proc.devRef .tc main_arg0) = V (Proc.devRef .tc main_arg0) := rfl

section Fold
variable {τ' : Topo} {sig' : RefSig} {Val : EltTy → Type}
/-- A line's last operation acts on the contents the operations before it leave. -/
theorem after_concat (l : List (HloOp τ' sig' Val)) (op : HloOp τ' sig' Val) (V : Valuation τ' sig' Val) :
    after (l ++ [op]) V = op.result (after l V) := by
  induction l generalizing V with
  | nil => rfl
  | cons o l ih => exact ih (o.result V)
end Fold

/-- The last operation: the six columns set side by side. -/
abbrev lastOp : HloOp τ sig (Elt F) :=
  nary ![main_v237, main_v238, main_v239, main_v240, main_v241, main_v242] main_v243 (fun u => concatenate S8388608x6 1 [⟨S8388608x1, u 0⟩, ⟨S8388608x1, u 1⟩, ⟨S8388608x1, u 2⟩, ⟨S8388608x1, u 3⟩, ⟨S8388608x1, u 4⟩, ⟨S8388608x1, u 5⟩] concatenates_S8388608x1_S8388608x1_S8388608x1_S8388608x1_S8388608x1_S8388608x1_S8388608x6_d1)

/-- The operations are the 321 before the last, then the last. -/
theorem ops_eq : (RunP.ops (F := F)) = List.take 321 RunP.ops ++ [lastOp] := rfl

/-- **The reference's result**: the rule, in the reference's spelling of the primitive operations, applied to every row
    of the bounds. -/
theorem ref_result (V : Valuation τ sig (Elt F)) :
    after (RunP.ops (F := F)) V (Proc.devRef .tc main_v243)
      = Cert.Spu.ruleArray primH (V (Proc.devRef .tc main_arg0)) := by
  -- the last operation on the contents the operations before it leave
  have hW : after (RunP.ops (F := F)) V (Proc.devRef .tc main_v243)
      = (lastOp (F := F)).result (after (List.take 321 RunP.ops) V) (Proc.devRef .tc main_v243) :=
    (congrArg (fun l => after l V (Proc.devRef .tc main_v243)) (ops_eq (F := F))).trans (congrFun (after_concat _ _ V) _)
  refine (hW.trans (nary_result' _ _ _ _ _)).trans ?_
  funext i
  obtain ⟨n, k, rfl⟩ : ∃ (n : Fin 8388608) (k : Fin 6), i = ValueIdx.ix2 n k := ⟨i 0, i 1, ValueIdx.eq_ix2 i⟩
  refine (six_apply ![after (List.take 321 (RunP.ops (F := F))) V (Proc.devRef .tc main_v237),
    after (List.take 321 (RunP.ops (F := F))) V (Proc.devRef .tc main_v238),
    after (List.take 321 (RunP.ops (F := F))) V (Proc.devRef .tc main_v239),
    after (List.take 321 (RunP.ops (F := F))) V (Proc.devRef .tc main_v240),
    after (List.take 321 (RunP.ops (F := F))) V (Proc.devRef .tc main_v241),
    after (List.take 321 (RunP.ops (F := F))) V (Proc.devRef .tc main_v242)] _ n k).trans ?_
  -- a column read at row `n`: the result at the bounds of row `n`
  have hrow : ∀ (g : F .f32 → F .f32 → F .f32) (x : S8388608x1.Idx → F .f32),
      x = broadcastInDim S8388608x1 ![0] bcast_S8388608_S8388608x1_0
        (fun m => g (lv (V (Proc.devRef .tc main_arg0)) m) (uv (V (Proc.devRef .tc main_arg0)) m)) →
      x (ValueIdx.ix2 n (0 : Fin 1))
        = g (V (Proc.devRef .tc main_arg0) (ValueIdx.ix2 n 0)) (V (Proc.devRef .tc main_arg0) (ValueIdx.ix2 n 1)) := by
    intro g x hx
    rw [hx, toCol_apply, lv_apply, uv_apply]
  match k with
  | ⟨0, _⟩ => exact hrow _ _ (col0 V)
  | ⟨1, _⟩ => exact hrow _ _ (col1 V)
  | ⟨2, _⟩ => exact hrow _ _ (col2 V)
  | ⟨3, _⟩ => exact hrow _ _ (col3 V)
  | ⟨4, _⟩ => exact hrow _ _ (col4 V)
  | ⟨5, _⟩ => exact hrow _ _ (col5 V)

end Cert.ReferenceIdeal.RefValue

end
-- ==== Proof.Spelling.lean ====
/-
  On the extended reals the kernel's and the reference's spellings of the primitive operations are the same
  functions: `0 - x = -x`; the one-operation logistic is by definition `1 / (1 + e^{-y})`, which at `y = 0 - x` is
  the reference's `1 / (1 + e^{-(-x)})`; the quotient, the absolute value and the square root are one function
  each whichever program applies them; and on a one-bit mask `xor 1` is the complement.
-/
import proofs.«103753_j14654428414206_2_alg».proof.Proof.Target
import Idealize.ShloMosaic.Lib.IdealHost

noncomputable section

namespace Cert.Spu

open Idealize.ShloMosaic

/-- The pattern of `0.0` denotes zero, so `0 - x` is `-x` on every extended real. -/
theorem zero_sub_ideal (x : Ideal .f32) : FloatOps.subf (c0 : Ideal .f32) x = FloatOps.hostNegf x := by
  show Ideal.ofBits .f32 0x00000000#32 - x = -x
  rw [Ideal.ofBits_zero_f32, zero_sub]

/-- The pattern of `1.0` denotes one. -/
theorem c1_ideal : (c1 : Ideal .f32) = (1 : EReal) := Ideal.ofBits_one_f32

/-- `σ(−x)`: the logistic of `0 - x` is `1 / (1 + e^{-(-x)})`. -/
theorem sgm_ideal (x : Ideal .f32) :
    FloatOps.logistic (FloatOps.subf (c0 : Ideal .f32) x)
      = FloatOps.hostDivf (c1 : Ideal .f32) (FloatOps.addf c1 (FloatOps.hostUnary .exp (FloatOps.hostNegf (FloatOps.hostNegf x)))) := by
  rw [zero_sub_ideal]
  show Ideal.logistic (-x) = Ideal.div (c1 : Ideal .f32) ((c1 : Ideal .f32) + Ideal.exp (- -x))
  rw [c1_ideal]
  rfl

/-- On one bit, `xor 1` is the complement. -/
theorem xor_one_eq_not : ∀ b : BitVec 1, IntOp.xori b 1#1 = ~~~b := by decide

/-- The two spellings denote the same primitive operations on the extended reals. -/
theorem primK_eq_primH : (primK : Prim Ideal) = primH := by
  unfold primK primH
  congr 1
  · funext x; exact zero_sub_ideal x
  · funext x; exact sgm_ideal x
  · funext b; exact xor_one_eq_not b

/-- Hence the rule itself is the same function in both spellings. -/
theorem ruleArray_primK (a : (⟨2, ![8388608, 2]⟩ : Shape).Idx → Ideal .f32) :
    ruleArray primK a = ruleArray primH a := by rw [primK_eq_primH]

end Cert.Spu

end
-- ==== Proof.lean ====
/-
  The two programs compute the same array.

  The kernel re-lays the [N, 2] array of bounds so that each grid point sees 2048 rows of 128 neurons, lower bounds
  in the left half of its block and upper bounds in the right half, applies the bound-propagation rule lane by
  lane, and the host stacks the six result planes back into [N, 6]; the reference applies the same rule to the two
  columns as flat vectors and stacks the six result vectors. Entry (n, k) of either result depends only on row n of
  the input: it is the k-th result of the rule at (l, u) = (bounds n 0, bounds n 1). The kernel's array is the
  rule in the kernel's spelling of the primitive operations (KIValue), the reference's array the rule in the
  reference's spelling (RefValue), and on the extended reals the two spellings are the same functions (Spelling):
  `0 - x = -x`, and the logistic function is `1 / (1 + e^{-x})` by definition. No step uses that the inputs are
  finite. Each program runs to the end without a fault and leaves its argument as it found it: the kernel programs
  by their frame runs (KFrame, KIFrame: the body's loads and stores stay inside the staging buffers, every block
  is fetched and written back once), the reference because it is a straight line of host operations (RefRun).
  The kernel's idealization rewrote no operation, so there is nothing to preserve.
-/
import proofs.«103753_j14654428414206_2_alg».proof.Defs
import proofs.«103753_j14654428414206_2_alg».proof.Proof.Gen.Kernel
import proofs.«103753_j14654428414206_2_alg».proof.Proof.Gen.KernelIdeal
import proofs.«103753_j14654428414206_2_alg».proof.Proof.Gen.ReferenceIdeal
import proofs.«103753_j14654428414206_2_alg».proof.Proof.Gen.Pre_finite_inputs
import proofs.«103753_j14654428414206_2_alg».proof.Proof.KFrame
import proofs.«103753_j14654428414206_2_alg».proof.Proof.KIFrame
import proofs.«103753_j14654428414206_2_alg».proof.Proof.KIValue
import proofs.«103753_j14654428414206_2_alg».proof.Proof.RefRun
import proofs.«103753_j14654428414206_2_alg».proof.Proof.RefValue
import proofs.«103753_j14654428414206_2_alg».proof.Proof.Spelling
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's argument is written by none of its operations. -/
theorem frame_ri : Cert.frame_ReferenceIdeal := fun m ρ _ =>
  (θ_run Cert.ReferenceIdeal.defs _ _).mono
    (fun _ h c => (h c Cert.ReferenceIdeal.main_arg0).trans (Cert.ReferenceIdeal.RefValue.arg_kept _))
    (Cert.ReferenceIdeal.RunP.run (F := Ideal) m ρ)

/-- Both results are the rule applied to every row of the one input. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨?_, ?_⟩) (Cert.ReferenceIdeal.RunP.run (F := Ideal) m' ρ')
  · rw [h c Cert.ReferenceIdeal.main_v243, Cert.ReferenceIdeal.RefValue.ref_result, Cert.Spu.ruleArray_primK]
    exact congrArg (Cert.Spu.ruleArray Cert.Spu.primH) (hagree c)
  · exact (h c Cert.ReferenceIdeal.main_arg0).trans (Cert.ReferenceIdeal.RefValue.arg_kept _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
